-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S32x256 : Shape := ⟨2, ![32, 256]⟩
abbrev S32 : Shape := ⟨1, ![32]⟩
abbrev S256x32 : Shape := ⟨2, ![256, 32]⟩
abbrev S256 : Shape := ⟨1, ![256]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S32x256 : S_.BroadcastsInDim S32x256 (![] : Fin 0 → Fin S32x256.rank)
  reducesTo_S32x256_S_d0_1 : S32x256.ReducesTo [0, 1] S_
  bcast_S_S32 : S_.BroadcastsInDim S32 (![] : Fin 0 → Fin S32.rank)
  reducesTo_S32_S_d0 : S32.ReducesTo [0] S_
  bcast_S_S256x32 : S_.BroadcastsInDim S256x32 (![] : Fin 0 → Fin S256x32.rank)
  reducesTo_S256x32_S_d0_1 : S256x32.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x32 1) : IVec S_ 1 :=
  let main_c_5 : IVec S_ 1 := constantI S_ 1 1#1
  let main_v17 : IVec S_ 1 := (fun x v => Host.reduce IntOp.andi x v reducesTo_S256x32_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S32x256x64x64 .f32) (main_arg1 : FVec F S32x256 .f32) (main_arg2 : FVec F S32 .f32) (main_arg3 : FVec F S256x32 .f32) (main_arg4 : FVec F S256 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S32x256 .f32 := Host.absf main_arg1
  let main_cst_0 : FVec F S_ .f32 := constant S_ .f32 0x7F800000#32
  let main_v5 : FVec F S32x256 .f32 := broadcastInDim S32x256 ![] bcast_S_S32x256 main_cst_0
  let main_v6 : IVec S32x256 1 := cmpf .olt main_v4 main_v5
  let main_c_1 : IVec S_ 1 := constantI S_ 1 1#1
  let main_v7 : IVec S_ 1 := (fun x v => Host.reduce IntOp.andi x v reducesTo_S32x256_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S256x32 .f32 := Host.absf main_arg3
  let main_cst_4 : FVec F S_ .f32 := constant S_ .f32 0x7F800000#32
  let main_v15 : FVec F S256x32 .f32 := broadcastInDim S256x32 ![] bcast_S_S256x32 main_cst_4
  let main_v16 : IVec S256x32 1 := cmpf .olt main_v14 main_v15
  fn_part1 (F := F) main_arg4 main_v13 main_v16
-- ==== Kernel.lean ====
abbrev S32x256x64x64 : Shape := ⟨4, ![32, 256, 64, 64]⟩
abbrev S32x256 : Shape := ⟨2, ![32, 256]⟩
abbrev S32 : Shape := ⟨1, ![32]⟩
abbrev S256x32 : Shape := ⟨2, ![256, 32]⟩
abbrev S256 : Shape := ⟨1, ![256]⟩
abbrev S32x256x4096 : Shape := ⟨3, ![32, 256, 4096]⟩
abbrev S32x1 : Shape := ⟨2, ![32, 1]⟩
abbrev S256x1 : Shape := ⟨2, ![256, 1]⟩
abbrev S1x256x4096 : Shape := ⟨3, ![1, 256, 4096]⟩
abbrev S256x4096 : Shape := ⟨2, ![256, 4096]⟩
abbrev S256x256 : Shape := ⟨2, ![256, 256]⟩
abbrev S1x256x256 : Shape := ⟨3, ![1, 256, 256]⟩
abbrev S1 : Shape := ⟨1, ![1]⟩
abbrev S1x1x1 : Shape := ⟨3, ![1, 1, 1]⟩
abbrev S1x256 : Shape := ⟨2, ![1, 256]⟩

abbrev nBuf : Space → Nat
  | .hbm => 10
  | .vmem => 8
  | .smem => 0
  | _ => 0

abbrev bufTy : (tb : Table) → Fin (tcTables nBuf tb) → BufTy
  | .hbm, ⟨0, _⟩ => ⟨S32x256x64x64, .f32⟩
  | .hbm, ⟨1, _⟩ => ⟨S32x256, .f32⟩
  | .hbm, ⟨2, _⟩ => ⟨S32, .f32⟩
  | .hbm, ⟨3, _⟩ => ⟨S256x32, .f32⟩
  | .hbm, ⟨4, _⟩ => ⟨S256, .f32⟩
  | .hbm, ⟨5, _⟩ => ⟨S32x256x4096, .f32⟩
  | .hbm, ⟨6, _⟩ => ⟨S32x1, .f32⟩
  | .hbm, ⟨7, _⟩ => ⟨S256x1, .f32⟩
  | .hbm, ⟨8, _⟩ => ⟨S32x256x4096, .f32⟩
  | .hbm, ⟨9, _⟩ => ⟨S32x256x64x64, .f32⟩
  | .local _ .vmem, ⟨0, _⟩ => ⟨S1x256x4096, .f32⟩
  | .local _ .vmem, ⟨1, _⟩ => ⟨S1x256x4096, .f32⟩
  | .local _ .vmem, ⟨2, _⟩ => ⟨S32x256, .f32⟩
  | .local _ .vmem, ⟨3, _⟩ => ⟨S32x1, .f32⟩
  | .local _ .vmem, ⟨4, _⟩ => ⟨S256x32, .f32⟩
  | .local _ .vmem, ⟨5, _⟩ => ⟨S256x1, .f32⟩
  | .local _ .vmem, ⟨6, _⟩ => ⟨S1x256x4096, .f32⟩
  | .local _ .vmem, ⟨7, _⟩ => ⟨S1x256x4096, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x256x64x64_S32x256x4096 : S32x256x64x64.ShapeCasts S32x256x4096
  shapeCasts_S32_S32x1 : S32.ShapeCasts S32x1
  shapeCasts_S256_S256x1 : S256.ShapeCasts S256x1
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  reduces_S256x4096_S256 : S256x4096.Reduces [1] S256
  broadcasts_S256x1_S256x4096 : S256x1.Broadcasts S256x4096
  iota_S256x256_d0_w32 : S256x256.Iotas .tc 32 [0]
  iota_S256x256_d1_w32 : S256x256.Iotas .tc 32 [1]
  shapeCasts_S256x256_S1x256x256 : S256x256.ShapeCasts S1x256x256
  reduces_S1x256x256_S1 : S1x256x256.Reduces [1, 2] S1
  shapeCasts_S1_S1x1x1 : S1.ShapeCasts S1x1x1
  inpos_S1x1x1_p0_0_0 : ∀ a, (![0, 0, 0] : Fin 3 → Nat) a < S1x1x1.size a
  reduces_S256x256_S256 : S256x256.Reduces [0] S256
  shapeCasts_S256_S1x256 : S256.ShapeCasts S1x256
  transposes_S1x256_p1_0_S256x1 : S1x256.Transposes [1, 0] S256x1
  inb_S32x256_S32x256_0_0 : ∀ a, (![0, 0] : Fin 2 → Nat) a + S32x256.size a ≤ S32x256.size a
  h_S32x256 : 0 < S32x256.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S256x32_S256x32_0_0 : ∀ a, (![0, 0] : Fin 2 → Nat) a + S256x32.size a ≤ S256x32.size a
  h_S256x32 : 0 < S256x32.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  shapeCasts_S256x4096_S1x256x4096 : S256x4096.ShapeCasts S1x256x4096
  shapeCasts_S32x256x4096_S32x256x64x64 : S32x256x4096.ShapeCasts S32x256x64x64
  dot_S256x4096_S256x4096_S256x256_1_1_0_0_n_n_wf : DotDims.WF S256x4096 S256x4096 S256x256 [1] [1] [0] [0] [] []
  dot_S256x256_S256x256_S256x256_1_0_0_1_n_n_wf : DotDims.WF S256x256 S256x256 S256x256 [1] [0] [0] [1] [] []
  dot_S32x256_S256x1_S32x1_1_0_0_1_n_n_wf : DotDims.WF S32x256 S256x1 S32x1 [1] [0] [0] [1] [] []
  dot_S256x32_S32x1_S256x1_1_0_0_1_n_n_wf : DotDims.WF S256x32 S32x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S32x256x4096.size a
  hwx0_0 : ∀ i : grid0.Coords, EltTy.bits .f32 = 32 ∨ (Rect.block (s := S32x256x4096) S1x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S32x256.size a
  hwx0_1 : ∀ i : grid0.Coords, EltTy.bits .f32 = 32 ∨ (Rect.block (s := S32x256) S32x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x32.size a ≤ S256x32.size a
  hwx0_3 : ∀ i : grid0.Coords, EltTy.bits .f32 = 32 ∨ (Rect.block (s := S256x32) S256x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x4096.size a ≤ S32x256x4096.size a
  hwx0_5 : ∀ i : grid0.Coords, EltTy.bits .f32 = 32 ∨ (Rect.block (s := S32x256x4096) S1x256x4096.size (cc0_transform_5 i) (hinb0_5 i)).WholeWords (EltTy.packing .f32)

variable [Facts₀]

def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S32x256_S256x1_S32x1_1_0_0_1_n_n : DotDims S32x256 S256x1 S32x1 where
  lhsContracting := [1]
  rhsContracting := [0]
  lhsNonContracting := [0]
  rhsNonContracting := [1]
  lhsBatch := []
  rhsBatch := []
  wf := dot_S32x256_S256x1_S32x1_1_0_0_1_n_n_wf
def dot_S256x32_S32x1_S256x1_1_0_0_1_n_n : DotDims S256x32 S32x1 S256x1 where
  lhsContracting := [1]
  rhsContracting := [0]
  lhsNonContracting := [0]
  rhsNonContracting := [1]
  lhsBatch := []
  rhsBatch := []
  wf := dot_S256x32_S32x1_S256x1_1_0_0_1_n_n_wf

abbrev win0_0 : Pipeline.Window sig grid0 :=
  Pipeline.Window.ofSpec (Memref.whole main_v0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x256x64x64 : Shape := ⟨4, ![32, 256, 64, 64]⟩
abbrev S32x256 : Shape := ⟨2, ![32, 256]⟩
abbrev S32 : Shape := ⟨1, ![32]⟩
abbrev S256x32 : Shape := ⟨2, ![256, 32]⟩
abbrev S256 : Shape := ⟨1, ![256]⟩
abbrev S32x256x4096 : Shape := ⟨3, ![32, 256, 4096]⟩
abbrev S_ : Shape := ⟨0, ![]⟩
abbrev S32x256x1 : Shape := ⟨3, ![32, 256, 1]⟩
abbrev S32x256x256 : Shape := ⟨3, ![32, 256, 256]⟩
abbrev S256x256 : Shape := ⟨2, ![256, 256]⟩
abbrev S1x256x256 : Shape := ⟨3, ![1, 256, 256]⟩
abbrev S32x1x1 : Shape := ⟨3, ![32, 1, 1]⟩
abbrev S32x32 : Shape := ⟨2, ![32, 32]⟩
abbrev S1x32 : Shape := ⟨2, ![1, 32]⟩
abbrev S1x256 : Shape := ⟨2, ![1, 256]⟩
abbrev S32x256x1x1 : Shape := ⟨4, ![32, 256, 1, 1]⟩

abbrev nBuf : Space → Nat
  | .hbm => 109
  | .vmem => 0
  | .smem => 0
  | _ => 0

abbrev bufTy : (tb : Table) → Fin (tcTables nBuf tb) → BufTy
  | .hbm, ⟨0, _⟩ => ⟨S32x256x64x64, .f32⟩
  | .hbm, ⟨1, _⟩ => ⟨S32x256, .f32⟩
  | .hbm, ⟨2, _⟩ => ⟨S32, .f32⟩
  | .hbm, ⟨3, _⟩ => ⟨S256x32, .f32⟩
  | .hbm, ⟨4, _⟩ => ⟨S256, .f32⟩
  | .hbm, ⟨5, _⟩ => ⟨S32x256x4096, .f32⟩
  | .hbm, ⟨6, _⟩ => ⟨S_, .f32⟩
  | .hbm, ⟨7, _⟩ => ⟨S32x256, .f32⟩
  | .hbm, ⟨8, _⟩ => ⟨S32x256x1, .f32⟩
  | .hbm, ⟨9, _⟩ => ⟨S_, .f32⟩
  | .hbm, ⟨10, _⟩ => ⟨S32x256x1, .f32⟩
  | .hbm, ⟨11, _⟩ => ⟨S32x256x1, .f32⟩
  | .hbm, ⟨12, _⟩ => ⟨S32x256x4096, .f32⟩
  | .hbm, ⟨13, _⟩ => ⟨S32x256x4096, .f32⟩
  | .hbm, ⟨14, _⟩ => ⟨S32x256x256, .f32⟩
  | .hbm, ⟨15, _⟩ => ⟨S_, .f32⟩
  | .hbm, ⟨16, _⟩ => ⟨S32x256x256, .f32⟩
  | .hbm, ⟨17, _⟩ => ⟨S32x256x256, .f32⟩
  | .hbm, ⟨18, _⟩ => ⟨S256x256, .i32⟩
  | .hbm, ⟨19, _⟩ => ⟨S256x256, .i32⟩
  | .hbm, ⟨20, _⟩ => ⟨S_, .i32⟩
  | .hbm, ⟨21, _⟩ => ⟨S256x256, .i32⟩
  | .hbm, ⟨22, _⟩ => ⟨S256x256, .i32⟩
  | .hbm, ⟨23, _⟩ => ⟨S256x256, .i1⟩
  | .hbm, ⟨24, _⟩ => ⟨S256x256, .f32⟩
  | .hbm, ⟨25, _⟩ => ⟨S1x256x256, .f32⟩
  | .hbm, ⟨26, _⟩ => ⟨S_, .f32⟩
  | .hbm, ⟨27, _⟩ => ⟨S1x256x256, .f32⟩
  | .hbm, ⟨28, _⟩ => ⟨S1x256x256, .f32⟩
  | .hbm, ⟨29, _⟩ => ⟨S256x256, .i32⟩
  | .hbm, ⟨30, _⟩ => ⟨S256x256, .i32⟩
  | .hbm, ⟨31, _⟩ => ⟨S256x256, .i1⟩
  | .hbm, ⟨32, _⟩ => ⟨S32x256x256, .i1⟩
  | .hbm, ⟨33, _⟩ => ⟨S_, .f32⟩
  | .hbm, ⟨34, _⟩ => ⟨S32x256x256, .f32⟩
  | .hbm, ⟨35, _⟩ => ⟨S32x256x256, .f32⟩
  | .hbm, ⟨36, _⟩ => ⟨S_, .f32⟩
  | .hbm, ⟨37, _⟩ => ⟨S32, .f32⟩
  | .hbm, ⟨38, _⟩ => ⟨S32x1x1, .f32⟩
  | .hbm, ⟨39, _⟩ => ⟨S32x256x256, .f32⟩
  | .hbm, ⟨40, _⟩ => ⟨S32x256x256, .f32⟩
  | .hbm, ⟨41, _⟩ => ⟨S32x256x256, .f32⟩
  | .hbm, ⟨42, _⟩ => ⟨S32x256x256, .f32⟩
  | .hbm, ⟨43, _⟩ => ⟨S_, .f32⟩
  | .hbm, ⟨44, _⟩ => ⟨S32x256x256, .f32⟩
  | .hbm, ⟨45, _⟩ => ⟨S32x256x256, .f32⟩
  | .hbm, ⟨46, _⟩ => ⟨S32x256x256, .f32⟩
  | .hbm, ⟨47, _⟩ => ⟨S32x256x256, .f32⟩
  | .hbm, ⟨48, _⟩ => ⟨S32x256x256, .f32⟩
  | .hbm, ⟨49, _⟩ => ⟨S32x256x256, .f32⟩
  | .hbm, ⟨50, _⟩ => ⟨S_, .f32⟩
  | .hbm, ⟨51, _⟩ => ⟨S32x256x256, .f32⟩
  | .hbm, ⟨52, _⟩ => ⟨S32x256x256, .f32⟩
  | .hbm, ⟨53, _⟩ => ⟨S32x256x256, .f32⟩
  | .hbm, ⟨54, _⟩ => ⟨S32x256x256, .f32⟩
  | .hbm, ⟨55, _⟩ => ⟨S32x256x256, .f32⟩
  | .hbm, ⟨56, _⟩ => ⟨S32x256x256, .f32⟩
  | .hbm, ⟨57, _⟩ => ⟨S32x256x256, .f32⟩
  | .hbm, ⟨58, _⟩ => ⟨S_, .f32⟩
  | .hbm, ⟨59, _⟩ => ⟨S32x256x256, .f32⟩
  | .hbm, ⟨60, _⟩ => ⟨S32x256x256, .f32⟩
  | .hbm, ⟨61, _⟩ => ⟨S32x256x256, .f32⟩
  | .hbm, ⟨62, _⟩ => ⟨S32x256x256, .f32⟩
  | .hbm, ⟨63, _⟩ => ⟨S32x256x256, .f32⟩
  | .hbm, ⟨64, _⟩ => ⟨S32x256x256, .f32⟩
  | .hbm, ⟨65, _⟩ => ⟨S32x256x256, .f32⟩
  | .hbm, ⟨66, _⟩ => ⟨S_, .f32⟩
  | .hbm, ⟨67, _⟩ => ⟨S32x256x256, .f32⟩
  | .hbm, ⟨68, _⟩ => ⟨S32x256x256, .f32⟩
  | .hbm, ⟨69, _⟩ => ⟨S32x256x256, .f32⟩
  | .hbm, ⟨70, _⟩ => ⟨S32x256x256, .f32⟩
  | .hbm, ⟨71, _⟩ => ⟨S32x256x256, .f32⟩
  | .hbm, ⟨72, _⟩ => ⟨S32x256x256, .f32⟩
  | .hbm, ⟨73, _⟩ => ⟨S32x256x256, .f32⟩
  | .hbm, ⟨74, _⟩ => ⟨S32x256x256, .f32⟩
  | .hbm, ⟨75, _⟩ => ⟨S_, .f32⟩
  | .hbm, ⟨76, _⟩ => ⟨S32x256x256, .f32⟩
  | .hbm, ⟨77, _⟩ => ⟨S32x256x256, .f32⟩
  | .hbm, ⟨78, _⟩ => ⟨S32, .f32⟩
  | .hbm, ⟨79, _⟩ => ⟨S32x1x1, .f32⟩
  | .hbm, ⟨80, _⟩ => ⟨S32x256x256, .f32⟩
  | .hbm, ⟨81, _⟩ => ⟨S32x256x256, .f32⟩
  | .hbm, ⟨82, _⟩ => ⟨S_, .f32⟩
  | .hbm, ⟨83, _⟩ => ⟨S32x256, .f32⟩
  | .hbm, ⟨84, _⟩ => ⟨S_, .f32⟩
  | .hbm, ⟨85, _⟩ => ⟨S32x256, .f32⟩
  | .hbm, ⟨86, _⟩ => ⟨S32x256, .f32⟩
  | .hbm, ⟨87, _⟩ => ⟨S32x32, .f32⟩
  | .hbm, ⟨88, _⟩ => ⟨S1x32, .f32⟩
  | .hbm, ⟨89, _⟩ => ⟨S32x32, .f32⟩
  | .hbm, ⟨90, _⟩ => ⟨S32x32, .f32⟩
  | .hbm, ⟨91, _⟩ => ⟨S_, .f32⟩
  | .hbm, ⟨92, _⟩ => ⟨S32x32, .f32⟩
  | .hbm, ⟨93, _⟩ => ⟨S32x32, .f32⟩
  | .hbm, ⟨94, _⟩ => ⟨S32x256, .f32⟩
  | .hbm, ⟨95, _⟩ => ⟨S1x256, .f32⟩
  | .hbm, ⟨96, _⟩ => ⟨S32x256, .f32⟩
  | .hbm, ⟨97, _⟩ => ⟨S32x256, .f32⟩
  | .hbm, ⟨98, _⟩ => ⟨S32x256, .f32⟩
  | .hbm, ⟨99, _⟩ => ⟨S32x256, .f32⟩
  | .hbm, ⟨100, _⟩ => ⟨S_, .f32⟩
  | .hbm, ⟨101, _⟩ => ⟨S32x256, .f32⟩
  | .hbm, ⟨102, _⟩ => ⟨S32x256, .f32⟩
  | .hbm, ⟨103, _⟩ => ⟨S_, .f32⟩
  | .hbm, ⟨104, _⟩ => ⟨S32x256, .f32⟩
  | .hbm, ⟨105, _⟩ => ⟨S32x256, .f32⟩
  | .hbm, ⟨106, _⟩ => ⟨S32x256x1x1, .f32⟩
  | .hbm, ⟨107, _⟩ => ⟨S32x256x64x64, .f32⟩
  | .hbm, ⟨108, _⟩ => ⟨S32x256x64x64, .f32⟩
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_9 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_10 : Ref sig .tc := ⟨.hbm, 82, rfl⟩
abbrev main_v65 : Ref sig .tc := ⟨.hbm, 83, rfl⟩
abbrev main_cst_11 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_call0_cst : Ref sig .tc := ⟨.hbm, 91, rfl⟩
abbrev main_call0_v0 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_12 : Ref sig .tc := ⟨.hbm, 100, rfl⟩
abbrev main_v79 : Ref sig .tc := ⟨.hbm, 101, rfl⟩
abbrev main_v80 : Ref sig .tc := ⟨.hbm, 102, rfl⟩
abbrev main_cst_13 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩

abbrev nD : Nat := 1
abbrev τ : Topo := Topo.v7x

variable {F : FTy → Type} [FloatOps F]

class Facts₀ : Prop where
  shapeCasts_S32x256x64x64_S32x256x4096 : S32x256x64x64.ShapeCasts S32x256x4096
  reducesTo_S32x256x4096_S32x256_d2 : S32x256x4096.ReducesTo [2] S32x256
  h_S_ : 0 < S_.numel
  bcast_S32x256_S32x256x1_0_1 : S32x256.BroadcastsInDim S32x256x1 (![0, 1] : Fin 2 → Fin S32x256x1.rank)
  bcast_S_S32x256x1 : S_.BroadcastsInDim S32x256x1 (![] : Fin 0 → Fin S32x256x1.rank)
  bcast_S32x256x1_S32x256x4096_0_1_2 : S32x256x1.BroadcastsInDim S32x256x4096 (![0, 1, 2] : Fin 3 → Fin S32x256x4096.rank)
  bcast_S_S32x256x256 : S_.BroadcastsInDim S32x256x256 (![] : Fin 0 → Fin S32x256x256.rank)
  bcast_S_S256x256 : S_.BroadcastsInDim S256x256 (![] : Fin 0 → Fin S256x256.rank)
  bcast_S256x256_S1x256x256_1_2 : S256x256.BroadcastsInDim S1x256x256 (![1, 2] : Fin 2 → Fin S1x256x256.rank)
  bcast_S_S1x256x256 : S_.BroadcastsInDim S1x256x256 (![] : Fin 0 → Fin S1x256x256.rank)
  bcast_S256x256_S32x256x256_1_2 : S256x256.BroadcastsInDim S32x256x256 (![1, 2] : Fin 2 → Fin S32x256x256.rank)
  reducesTo_S32x256x256_S32_d1_2 : S32x256x256.ReducesTo [1, 2] S32
  bcast_S32_S32x1x1_0 : S32.BroadcastsInDim S32x1x1 (![0] : Fin 1 → Fin S32x1x1.rank)
  bcast_S32x1x1_S32x256x256_0_1_2 : S32x1x1.BroadcastsInDim S32x256x256 (![0, 1, 2] : Fin 3 → Fin S32x256x256.rank)
  bcast_S1x256x256_S32x256x256_0_1_2 : S1x256x256.BroadcastsInDim S32x256x256 (![0, 1, 2] : Fin 3 → Fin S32x256x256.rank)
  reducesTo_S32x256x256_S32x256_d1 : S32x256x256.ReducesTo [1] S32x256
  bcast_S_S32x256 : S_.BroadcastsInDim S32x256 (![] : Fin 0 → Fin S32x256.rank)
  bcast_S32_S1x32_1 : S32.BroadcastsInDim S1x32 (![1] : Fin 1 → Fin S1x32.rank)
  bcast_S1x32_S32x32_0_1 : S1x32.BroadcastsInDim S32x32 (![0, 1] : Fin 2 → Fin S32x32.rank)
  bcast_S_S32x32 : S_.BroadcastsInDim S32x32 (![] : Fin 0 → Fin S32x32.rank)
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S32x256_S32x256x1x1_0_1 : S32x256.BroadcastsInDim S32x256x1x1 (![0, 1] : Fin 2 → Fin S32x256x1x1.rank)
  bcast_S32x256x1x1_S32x256x64x64_0_1_2_3 : S32x256x1x1.BroadcastsInDim S32x256x64x64 (![0, 1, 2, 3] : Fin 4 → Fin S32x256x64x64.rank)
  dot_S32x256x4096_S32x256x4096_S32x256x256_2_2_1_1_0_0_wf : DotDims.WF S32x256x4096 S32x256x4096 S32x256x256 [2] [2] [1] [1] [0] [0]
  dot_S32x256x256_S32x256x256_S32x256x256_2_1_1_2_0_0_wf : DotDims.WF S32x256x256 S32x256x256 S32x256x256 [2] [1] [1] [2] [0] [0]
  dot_S32x256_S32x256_S32x32_1_1_0_0_n_n_wf : DotDims.WF S32x256 S32x256 S32x32 [1] [1] [0] [0] [] []
  dot_S32x32_S256x32_S32x256_1_1_0_0_n_n_wf : DotDims.WF S32x32 S256x32 S32x256 [1] [1] [0] [0] [] []

variable [Facts₀]

def dot_S32x256x4096_S32x256x4096_S32x256x256_2_2_1_1_0_0 : DotDims S32x256x4096 S32x256x4096 S32x256x256 where
  lhsContracting := [2]
  rhsContracting := [2]
  lhsNonContracting := [1]
  rhsNonContracting := [1]
  lhsBatch := [0]
  rhsBatch := [0]
  wf := dot_S32x256x4096_S32x256x4096_S32x256x256_2_2_1_1_0_0_wf
def dot_S32x256x256_S32x256x256_S32x256x256_2_1_1_2_0_0 : DotDims S32x256x256 S32x256x256 S32x256x256 where
  lhsContracting := [2]
  rhsContracting := [1]
  lhsNonContracting := [1]
  rhsNonContracting := [2]
  lhsBatch := [0]
  rhsBatch := [0]
  wf := dot_S32x256x256_S32x256x256_S32x256x256_2_1_1_2_0_0_wf
def dot_S32x256_S32x256_S32x32_1_1_0_0_n_n : DotDims S32x256 S32x256 S32x32 where
  lhsContracting := [1]
  rhsContracting := [1]
  lhsNonContracting := [0]
  rhsNonContracting := [0]
  lhsBatch := []
  rhsBatch := []
  wf := dot_S32x256_S32x256_S32x32_1_1_0_0_n_n_wf
def dot_S32x32_S256x32_S32x256_1_1_0_0_n_n : DotDims S32x32 S256x32 S32x256 where
  lhsContracting := [1]
  rhsContracting := [1]
  lhsNonContracting := [0]
  rhsNonContracting := [0]
  lhsBatch := []
  rhsBatch := []
  wf := dot_S32x32_S256x32_S32x256_1_1_0_0_n_n_wf

class Facts : Prop extends Facts₀ where

variable [Facts]
-- ==== Proof.LibPlainMatmul.lean ====
/-
  A plain matrix product read at an index, over the extended reals.

  For dimension numbers that contract the left operand's axis 1 with the right operand's axis 0, keep the left
  operand's axis 0 and the right operand's axis 1, and have no batch axes, entry `(p, q)` of the product accumulated
  into the zero matrix is `∑ₖ lhs (p, k) * rhs (k, q)`: the contraction index, a one-axis multi-index, is its one
  coordinate, and the operand indices at `(p, q)` and `k` are `(p, k)` and `(k, q)`.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])

include hln hlb in
/-- The left operand's row coordinate is the result's row coordinate. -/
theorem lhsIdx_row (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln])

include hrn hrb hln hlb in
/-- The right operand's column coordinate is the result's column coordinate. -/
theorem rhsIdx_col (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln, hrn])

include hlc in
theorem contr_rank : d.contr.rank = 1 := by rw [d.rank_contr, hlc]; rfl

include hlc in
theorem contr_size (h0 : 0 < d.contr.rank) : d.contr.size ⟨0, h0⟩ = K := by
  have h1 : 0 < d.lhsContracting.length := by rw [hlc]; exact Nat.one_pos
  have e := d.size_contr 0 h1
  refine e.trans ?_
  have : d.lhsContracting[0] = (1 : Fin (⟨2, ![M, K]⟩ : Shape).rank) := by simp [hlc]
  rw [this]
  rfl

include hlc hrc hln hrn hlb hrb in
/-- ENTRY `(p, q)` OF A PLAIN PRODUCT INTO THE ZERO MATRIX: `∑ₖ lhs (p, k) * rhs (k, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  rw [Ideal.matmul_constant_zero_apply]
  have hr : d.contr.rank = 1 := contr_rank d hlc
  have hs : d.contr.size ⟨0, by omega⟩ = K := contr_size d hlc _
  rw [← Equiv.sum_comp (contrEquiv1 d K hr hs).symm]
  refine Finset.sum_congr rfl fun k _ => ?_
  have hl : d.lhsIdx (ix2 p q) ((contrEquiv1 d K hr hs).symm k) = ix2 p k := by
    funext a
    apply Fin.ext
    match a with
    | ⟨0, _⟩ => exact lhsIdx_row d hln hlb (ix2 p q) _
    | ⟨1, _⟩ =>
      exact (d.lhsIdx_val_of_single (cl := 1) hlc (ix2 p q) _).trans (contrEquiv1_symm_val d K hr hs k)
  have hr' : d.rhsIdx (ix2 p q) ((contrEquiv1 d K hr hs).symm k) = ix2 k q := by
    funext a
    apply Fin.ext
    match a with
    | ⟨0, _⟩ =>
      exact (d.rhsIdx_val_of_single (cr := 0) hrc (ix2 p q) _).trans (contrEquiv1_symm_val d K hr hs k)
    | ⟨1, _⟩ => exact rhsIdx_col d hln hrn hlb hrb (ix2 p q) _
  rw [hl, hr']

end Idealize.ShloMosaic.PlainMatmul
-- ==== Proof.LibAxisLayout.lean ====
/-
  Three-axis layout operations and single-axis reductions read at an index given by coordinates.

  A reduction of an [a, b, c] array along its middle or last axis leaves an [a, c] or [a, b] array; kept as a
  unit axis it is re-laid as [a, 1, c] or [a, b, 1] and broadcast back to [a, b, c]. Read at (i, j, k) each cast
  returns the operand's entry at the coordinates that remain — a unit coordinate is zero, so the row-major
  position is unchanged — and each broadcast reads the unit axis at 0 and the other axes at the result's own
  coordinates. A reduction over one axis, read at the kept coordinates, ranges over the dropped coordinate put
  back in its place.
-/
import Idealize.ShloMosaic.Lib.Pipeline.Value
import Idealize.ShloMosaic.Lib.ValueIdx
import Idealize.ShloMosaic.PureOps.Ideal.Laws

namespace Cert.Lib.AxisLayout

open Idealize.ShloMosaic Idealize.ShloMosaic.ValueIdx

variable {α : Type}

/-- Two indices of a one-axis shape with the same coordinate are equal. -/
theorem ext1 {n0 : ℕ} {f g : (⟨1, ![n0]⟩ : Shape).Idx} (h0 : (f 0).val = (g 0).val) : f = g :=
  funext fun a => Fin.ext (by match a with | ⟨0, _⟩ => exact h0)

/-- Two indices of a two-axis shape with the same coordinates are equal. -/
theorem ext2 {n0 n1 : ℕ} {f g : (⟨2, ![n0, n1]⟩ : Shape).Idx} (h0 : (f 0).val = (g 0).val) (h1 : (f 1).val = (g 1).val) : f = g :=
  funext fun a => Fin.ext (by match a with | ⟨0, _⟩ => exact h0 | ⟨1, _⟩ => exact h1)

/-- Two indices of a three-axis shape with the same coordinates are equal. -/
theorem ext3 {n0 n1 n2 : ℕ} {f g : (⟨3, ![n0, n1, n2]⟩ : Shape).Idx} (h0 : (f 0).val = (g 0).val) (h1 : (f 1).val = (g 1).val)
    (h2 : (f 2).val = (g 2).val) : f = g :=
  funext fun a => Fin.ext (by match a with | ⟨0, _⟩ => exact h0 | ⟨1, _⟩ => exact h1 | ⟨2, _⟩ => exact h2)

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, 1, c] array cast to [a, c] reads, at (i, k), the operand at (i, 0, k). -/
theorem shapeCast_a1c_ac_apply {a c : ℕ} (x : (⟨3, ![a, 1, c]⟩ : Shape).Idx → α)
    (h : (⟨3, ![a, 1, c]⟩ : Shape).ShapeCasts ⟨2, ![a, c]⟩) (i : Fin a) (k : Fin c) :
    shapeCast ⟨2, ![a, c]⟩ x h (ix2 i k) = x (ix3 i (0 : Fin 1) k) :=
  shapeCast_apply x h _ _ (by
    rw [Shape.rowMajor_val_three, Shape.rowMajor_val_two]
    show (i.val * 1 + 0) * c + k.val = i.val * c + k.val
    rw [Nat.mul_one, Nat.add_zero])

/-- An [a, b, 1] array broadcast to [a, b, c] reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An [a, 1, c] array broadcast to [a, b, c] reads, at (i, j, k), the operand at (i, 0, k). -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- Dropping the middle axis of [a, b, c]: the kept index (i, k) with coordinate j put back is (i, j, k). -/
theorem lift_abc_mid {a b c : ℕ} (h : (⟨3, ![a, b, c]⟩ : Shape).Reduces [1] (⟨2, ![a, c]⟩ : Shape)) (i : Fin a) (k : Fin c)
    (j : Fin ((⟨3, ![a, b, c]⟩ : Shape).size 1)) : h.lift (ix2 i k) j = ix3 i (⟨j.val, j.isLt⟩ : Fin b) k := by
  funext d; apply Fin.ext
  fin_cases d <;> rfl

/-- Dropping the last axis of [a, b, c]: the kept index (i, j) with coordinate k put back is (i, j, k). -/
theorem lift_abc_last {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext d; apply Fin.ext
  fin_cases d <;> rfl

/-- Dropping the last axis of [a, b]: the kept index i with coordinate k put back is (i, k). -/
theorem lift_ab_last {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext d; apply Fin.ext
  fin_cases d <;> rfl

variable {φ : FTy}

/-- A sum along the middle axis of [a, b, c], at (i, k), is the sum over j of the entries (i, j, k). -/
theorem sum_mid_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (lift_abc_mid h i k j))

/-- A sum along the last axis of [a, b, c], at (i, j), is the sum over k of the entries (i, j, k). -/
theorem sum_last_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_abc_last h i j k))

/-- A sum along the last axis of [a, b], at i, is the sum over k of the entries (i, k). -/
theorem sum_row_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_ab_last h i k))

/-- A maximum along the middle axis of [a, b, c], at (i, k): the fold of max from the start value over the entries (i, j, k). -/
theorem max_mid_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.maximumf.neutral φ hφ)
    (i : Fin a) (k : Fin c) :
    multiReduction .maximumf [1] ⟨2, ![a, c]⟩ src acc h hφ hacc (ix2 i k)
      = (Finset.univ : Finset (Fin b)).fold max (Ideal.ofBits φ acc) (fun j => src (ix3 i j k)) :=
  (Ideal.multiReduction_maximumf_single src acc h hφ hacc (ix2 i k)).trans
    (congrArg (fun f => (Finset.univ : Finset (Fin b)).fold max (Ideal.ofBits φ acc) f)
      (funext fun j => congrArg src (lift_abc_mid h i k j)))

/-- A maximum along the last axis of [a, b, c], at (i, j): the fold of max from the start value over the entries (i, j, k). -/
theorem max_last_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) (fun k => src (ix3 i j k)) :=
  (Ideal.multiReduction_maximumf_single src acc h hφ hacc (ix2 i j)).trans
    (congrArg (fun f => (Finset.univ : Finset (Fin c)).fold max (Ideal.ofBits φ acc) f)
      (funext fun k => congrArg src (lift_abc_last h i j k)))

end Cert.Lib.AxisLayout
-- ==== Proof.LibBatchSlice.lean ====
/-
  One matrix of a stack, operation by operation, over the extended reals.

  A stack `X : [n, a, b]` and a matrix `x : [a, b]` are related at `t` (`Slice t X x`) when `X (t, i, j) = x (i, j)`
  for every `(i, j)`. A program that works on the whole stack and a program that works on one matrix at a time
  apply the same operations, and each operation carries the relation from its operands to its result: a
  difference, a product with a constant-filled array, a quotient by one, and a matrix product (the stacked one
  given as a sum over the contracted coordinate, the single one as a product into the zero matrix). Beside these:
  sums over two axes read as double sums over coordinates (a stack summed over its two matrix axes; a one-matrix
  stack summed whole), a column sum, and the few facts about numerals and one-bit selects that join a masked
  sum to a trace, a division by 4096 to a product with 2⁻¹², and the expanded logistic to the function.
-/
import Idealize.ShloMosaic.Lib.ValueIdx
import Idealize.ShloMosaic.Lib.Pipeline.Value
import Idealize.ShloMosaic.PureOps.Ideal.Laws
import proofs.«165053_j71107478552742_2_alg».proof.Proof.LibPlainMatmul
import proofs.«165053_j71107478552742_2_alg».proof.Proof.LibAxisLayout

noncomputable section

open scoped BigOperators

namespace Cert.Lib.BatchSlice

open Idealize.ShloMosaic Idealize.ShloMosaic.ValueIdx Cert.Lib.AxisLayout

variable {n a b c : ℕ}

/-! ## The relation and the operations that carry it -/

/-- `x` is matrix `t` of the stack `X`. -/
def Slice (t : Fin n) (X : FVec Ideal ⟨3, ![n, a, b]⟩ .f32) (x : FVec Ideal ⟨2, ![a, b]⟩ .f32) : Prop :=
  ∀ (i : Fin a) (j : Fin b), X (ix3 t i j) = x (ix2 i j)

/-- A difference of stacks is, matrix by matrix, the difference of the matrices. -/
theorem Slice.sub {t : Fin n} {X Y : FVec Ideal ⟨3, ![n, a, b]⟩ .f32} {x y : FVec Ideal ⟨2, ![a, b]⟩ .f32}
    (hX : Slice t X x) (hY : Slice t Y y) : Slice t (subf X Y) (subf x y) := fun i j => by
  show X _ - Y _ = x _ - y _
  rw [hX i j, hY i j]

/-- A stack multiplied on the left by an array that is `k` throughout matrix `t`. -/
theorem Slice.scale {t : Fin n} {C X : FVec Ideal ⟨3, ![n, a, b]⟩ .f32} {x : FVec Ideal ⟨2, ![a, b]⟩ .f32} (k : EReal)
    (hC : ∀ i j, C (ix3 t i j) = k) (hX : Slice t X x) :
    Slice t (mulf C X) (mulf (broadcast ⟨2, ![a, b]⟩ k) x) := fun i j => by
  show C _ * X _ = k * x _
  rw [hC, hX i j]

/-- The same with the constant on the right. -/
theorem Slice.scaleRight {t : Fin n} {C X : FVec Ideal ⟨3, ![n, a, b]⟩ .f32} {x : FVec Ideal ⟨2, ![a, b]⟩ .f32} (k : EReal)
    (hC : ∀ i j, C (ix3 t i j) = k) (hX : Slice t X x) :
    Slice t (mulf X C) (mulf x (broadcast ⟨2, ![a, b]⟩ k)) := fun i j => by
  show X _ * C _ = x _ * k
  rw [hC, hX i j]

/-- A stack divided (the host's division) by an array that is `k` throughout matrix `t`, against the matrix divided
    (the kernel's division) by the constant: both are the one division of the extended reals. -/
theorem Slice.div {t : Fin n} {D X : FVec Ideal ⟨3, ![n, a, b]⟩ .f32} {x : FVec Ideal ⟨2, ![a, b]⟩ .f32} (k : EReal)
    (hD : ∀ i j, D (ix3 t i j) = k) (hX : Slice t X x) :
    Slice t (Host.divf X D) (divf x (broadcast ⟨2, ![a, b]⟩ k)) := fun i j => by
  show Ideal.div (X _) (D _) = Ideal.div (x _) k
  rw [hD, hX i j]

/-- A stack of matrix products — entry `(t, i, j)` the sum over `k` of `L (t, i, k) * R (t, k, j)`, the two operand
    indices given as functions of the result index and `k` — is, matrix by matrix, the product of the matrices
    accumulated into the zero matrix. -/
theorem Slice.mm {t : Fin n} (d : DotDims ⟨2, ![a, b]⟩ ⟨2, ![b, c]⟩ ⟨2, ![a, c]⟩)
    (hlc : d.lhsContracting = [1]) (hrc : d.rhsContracting = [0])
    (hln : d.lhsNonContracting = [0]) (hrn : d.rhsNonContracting = [1])
    (hlb : d.lhsBatch = []) (hrb : d.rhsBatch = [])
    {Y : FVec Ideal ⟨3, ![n, a, c]⟩ .f32} {L : FVec Ideal ⟨3, ![n, a, b]⟩ .f32} {R : FVec Ideal ⟨3, ![n, b, c]⟩ .f32}
    {lidx : (⟨3, ![n, a, c]⟩ : Shape).Idx → Fin b → (⟨3, ![n, a, b]⟩ : Shape).Idx}
    {ridx : (⟨3, ![n, a, c]⟩ : Shape).Idx → Fin b → (⟨3, ![n, b, c]⟩ : Shape).Idx}
    (hY : ∀ i, Y i = ∑ k : Fin b, L (lidx i k) * R (ridx i k))
    (hl : ∀ i k, lidx i k = ix3 (i 0) (i 1) k) (hr : ∀ i k, ridx i k = ix3 (i 0) k (i 2))
    {l : FVec Ideal ⟨2, ![a, b]⟩ .f32} {r : FVec Ideal ⟨2, ![b, c]⟩ .f32} (hL : Slice t L l) (hR : Slice t R r) :
    Slice t Y (matmul d none l r (constant ⟨2, ![a, c]⟩ .f32 0x00000000#32)) := fun i j => by
  rw [hY]
  refine Eq.trans ?_ (Idealize.ShloMosaic.PlainMatmul.matmul_zero_apply d hlc hrc hln hrn hlb hrb none l r i j).symm
  refine Finset.sum_congr rfl fun k _ => ?_
  rw [hl, hr]
  exact congrArg₂ (· * ·) (hL i k) (hR k j)

/-! ## Sums over two axes -/

/-- A rank-3 index set is the product of its three coordinate ranges … -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : ℕ} (f : (⟨3, ![n0, n1, n2]⟩ : Shape).Idx → M) :
    ∑ i, f i = ∑ u : Fin n0, ∑ p : Fin n1, ∑ q : Fin n2, f (ix3 u p q) := by
  rw [← Equiv.sum_comp (idxEquiv3 (n0 := n0) (n1 := n1) (n2 := n2)).symm f, Fintype.sum_prod_type]
  refine Finset.sum_congr rfl fun u _ => ?_
  rw [Fintype.sum_prod_type]
  rfl

/-- A one-matrix stack summed whole is the double sum over the matrix. -/
theorem sum_unit_stack {M : Type*} [AddCommMonoid M] (f : (⟨3, ![1, a, b]⟩ : Shape).Idx → M) :
    ∑ i, f i = ∑ p : Fin a, ∑ q : Fin b, f (ix3 (0 : Fin 1) p q) := by
  rw [sum_idx3, Fin.sum_univ_one]

/-- The host's sum of a stack over its two matrix axes, at `t`: the initial value plus the double sum over matrix `t`. -/
theorem hostReduceAdd_planes (h' : (⟨3, ![n, a, b]⟩ : Shape).ReducesTo [1, 2] ⟨1, ![n]⟩)
    (x : (⟨3, ![n, a, b]⟩ : Shape).Idx → EReal) (init : EReal) (t : Fin n) :
    Ideal.hostReduceAdd h' x init (ix1 t) = init + ∑ p : Fin a, ∑ q : Fin b, x (ix3 t p q) := by
  unfold Ideal.hostReduceAdd
  refine congrArg (init + ·) ?_
  have key : ∀ (u : Fin n) (p : Fin a) (q : Fin b), h'.drop (ix3 u p q) = ix1 t ↔ u = t := by
    intro u p q
    have hv : ((h'.drop (ix3 u p q)) 0 : ℕ) = u.val := rfl
    constructor
    · intro e
      have e0 : ((h'.drop (ix3 u p q)) 0 : ℕ) = ((ix1 t) 0 : ℕ) := congrArg (fun f => ((f 0 : Fin _) : ℕ)) e
      exact Fin.ext (hv.symm.trans e0)
    · intro e
      subst e
      exact ext1 hv
  rw [Finset.sum_filter, sum_idx3]
  simp only [key]
  rw [Finset.sum_eq_single t]
  · simp
  · intro u _ hu
    simp [hu]
  · intro h
    exact absurd (Finset.mem_univ t) h

/-- Putting the dropped first coordinate of `[a, b]` back. -/
theorem lift_ab_first (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext d; apply Fin.ext
  fin_cases d <;> rfl

/-- A sum along the first axis of `[a, b]`, at `j`, is the sum over `i` of the entries `(i, j)`. -/
theorem sum_col_apply {φ : FTy} (src : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (j : Fin b) :
    multiReduction .add [0] ⟨1, ![b]⟩ src acc h hφ hacc (ix1 j) = ∑ i : Fin a, src (ix2 i j) :=
  (Ideal.multiReduction_add_single src acc h hφ hacc (ix1 j)).trans
    (Finset.sum_congr rfl fun k _ => congrArg src (lift_ab_first h j k))

/-! ## Numerals and one-bit selects -/

/-- `1.0` denotes `1`. -/
theorem ofBits_one : Ideal.ofBits .f32 0x3F800000#32 = 1 := by
  simp [Ideal.ofBits, Ideal.ieee, -EReal.coe_mul]; norm_num

/-- `4096.0` denotes the real `4096`. -/
theorem ofBits_4096 : Ideal.ofBits .f32 0x45800000#32 = ((4096 : ℝ) : EReal) := by
  simp [Ideal.ofBits, Ideal.ieee, -EReal.coe_mul]; norm_num

/-- `2.44140625e-4` denotes `1 / 4096`. -/
theorem ofBits_inv_4096 : Ideal.ofBits .f32 0x39800000#32 = ((1 / 4096 : ℝ) : EReal) := by
  simp [Ideal.ofBits, Ideal.ieee, -EReal.coe_mul]; norm_num

/-- Dividing by `4096.0` is multiplying by `2.44140625e-4`, on every extended real. -/
theorem div_4096 (x : EReal) : Ideal.div x (Ideal.ofBits .f32 0x45800000#32) = x * Ideal.ofBits .f32 0x39800000#32 := by
  rw [ofBits_4096, ofBits_inv_4096, Ideal.div_coe (by norm_num)]

/-- A one-bit integer converted to a float is `1.0` or `0.0` selected by the bit. -/
theorem uitofp_bit (cb : BitVec 1) :
    (FloatOps.uitofp .f32 cb : Ideal .f32)
      = Scalar.select cb (Ideal.ofBits .f32 0x3F800000#32) (Ideal.ofBits .f32 0x00000000#32) := by
  by_cases h : cb = 1#1
  · subst h
    rw [select_one, ofBits_one]
    show (((1#1 : BitVec 1).toNat : ℝ) : EReal) = 1
    simp
  · have h0 := eq_zero_of_ne_one h
    subst h0
    rw [select_zero, Ideal.ofBits_zero_f32]
    show (((0#1 : BitVec 1).toNat : ℝ) : EReal) = 0
    simp

/-- A product with `1.0` or `0.0` selected by a bit is the factor or `0.0` selected by it, on every extended real. -/
theorem mul_select_bit (x : EReal) (cb : BitVec 1) :
    x * Scalar.select cb (Ideal.ofBits .f32 0x3F800000#32) (Ideal.ofBits .f32 0x00000000#32)
      = Scalar.select cb x (Ideal.ofBits .f32 0x00000000#32) := by
  by_cases h : cb = 1#1
  · subst h
    rw [select_one, select_one, ofBits_one, mul_one]
  · have h0 := eq_zero_of_ne_one h
    subst h0
    rw [select_zero, select_zero, Ideal.ofBits_zero_f32, mul_zero]

/-- The logistic function is `1 / (1 + e⁻ˣ)` with `1.0` for each `1`. -/
theorem logistic_expanded (x : EReal) :
    Ideal.div (Ideal.ofBits .f32 0x3F800000#32) (Ideal.ofBits .f32 0x3F800000#32 + Ideal.exp (-x)) = Ideal.logistic x := by
  rw [ofBits_one]
  rfl

end Cert.Lib.BatchSlice
-- ==== Proof.LibKeepdims.lean ====
/-
  Column-shaped layout operations read at an index given by coordinates.

  A sum taken along the last axis with the axis kept (a "keepdims" row sum) leaves a COLUMN: the vector of
  sums `[a]` is re-laid as `[a, 1]` and then broadcast along the new unit axis to `[a, b]`. Read at `(p, c)`
  each of the two steps returns the operand's entry for row `p`, whatever the column `c`: the cast because
  the row-major position of `(p, 0)` in `[a, 1]` is `p · 1 + 0 = p`, the broadcast because a unit axis is read
  at `0` and every other axis at the result's own coordinate. (The transposed pair — a vector re-laid as one row
  `[1, b]` and that row broadcast over `a` rows — is already in the layout library.)
-/
import Idealize.ShloMosaic.Lib.Pipeline.Value
import Idealize.ShloMosaic.Lib.ValueIdx

namespace Cert.Lib.Keepdims

open Idealize.ShloMosaic Idealize.ShloMosaic.ValueIdx

variable {α : Type}

/-- An `[a]` vector cast to the column `[a, 1]` reads, at `(i, u)`, the operand at `i`: the unit coordinate `u`
    is `0`, and `(i, 0)` sits at row-major position `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry for row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.LibMatmulNT.lean ====
/-
  A matrix product whose right operand is contracted on its LAST axis, read at an index, over the extended reals.

  For dimension numbers that contract the left operand's axis 1 with the right operand's axis 1, keep axis 0 of each,
  and have no batch axes — `[M, K] · [N, K] → [M, N]`, the product with the transposed right operand in which no
  transpose is ever formed — entry `(p, q)` of the product accumulated into the zero matrix is
  `∑ₖ lhs (p, k) * rhs (q, k)`. The contraction index, a multi-index with one axis, is its one coordinate; at result
  index `(p, q)` and contraction coordinate `k` the left operand is read at `(p, k)` and the right one at `(q, k)`.
-/
import Idealize.ShloMosaic.Lib.ValueIdx
import Idealize.ShloMosaic.PureOps.Ideal.Laws

noncomputable section

open scoped BigOperators

namespace Idealize.ShloMosaic.MatmulNT

open Idealize.ShloMosaic Idealize.ShloMosaic.ValueIdx

/-- A coordinate of an index does not depend on how its axis number is spelt. -/
theorem coord_congr {S : Shape} (j : S.Idx) {a b : Nat} (ha : a < S.rank) (hb : b < S.rank) (h : a = b) :
    (j ⟨a, ha⟩).val = (j ⟨b, hb⟩).val := by subst h; rfl

variable {M K N : Nat} (d : DotDims ⟨2, ![M, K]⟩ ⟨2, ![N, K]⟩ ⟨2, ![M, N]⟩)
  (hlc : d.lhsContracting = [1]) (hrc : d.rhsContracting = [1])
  (hln : d.lhsNonContracting = [0]) (hrn : d.rhsNonContracting = [0])
  (hlb : d.lhsBatch = []) (hrb : d.rhsBatch = [])

include hln hlb in
/-- The left operand's kept axis is the result's axis 0: its coordinate there is the result's row. -/
theorem lhsIdx_kept (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  exact coord_congr j _ _ (by simp [hlb, hln])

include hln hrn hlb hrb in
/-- The right operand's kept axis is the result's axis 1 (it comes after the left operand's one kept axis): its
    coordinate there is the result's column. -/
theorem rhsIdx_kept (j : (⟨2, ![M, N]⟩ : Shape).Idx) (k : d.contr.Idx) : (d.rhsIdx j k 0).val = (j 1).val := by
  have hb : (0 : Fin (⟨2, ![N, K]⟩ : Shape).rank) ∉ d.rhsBatch := by rw [hrb]; exact List.not_mem_nil
  have hn : (0 : Fin (⟨2, ![N, K]⟩ : Shape).rank) ∈ d.rhsNonContracting := by rw [hrn]; exact List.mem_singleton.mpr rfl
  unfold DotDims.rhsIdx
  rw [dif_neg hb, dif_pos hn]
  simp only [Fin.val_cast]
  exact coord_congr j _ _ (by simp [hlb, hln, hrn])

include hlc in
/-- One axis is contracted, -/
theorem contr_rank : d.contr.rank = 1 := by rw [d.rank_contr, hlc]; rfl

include hlc in
/-- and its extent is the operands' shared inner extent. -/
theorem contr_size (h0 : 0 < d.contr.rank) : d.contr.size ⟨0, h0⟩ = K := by
  have h1 : 0 < d.lhsContracting.length := by rw [hlc]; exact Nat.one_pos
  refine (d.size_contr 0 h1).trans ?_
  have e : d.lhsContracting[0] = (1 : Fin (⟨2, ![M, K]⟩ : Shape).rank) := by simp [hlc]
  rw [e]
  rfl

include hlc hrc hln hrn hlb hrb in
/-- ENTRY `(p, q)` OF THE PRODUCT WITH THE TRANSPOSED RIGHT OPERAND, INTO THE ZERO MATRIX: `∑ₖ lhs (p, k) * rhs (q, k)`. -/
theorem matmul_zero_apply {φ₁ φ₂ : FTy} (prec : Option ContractPrecision)
    (lhs : FVec Ideal ⟨2, ![M, K]⟩ φ₁) (rhs : FVec Ideal ⟨2, ![N, K]⟩ φ₂) (p : Fin M) (q : Fin N) :
    FloatOps.matmul d prec lhs rhs (constant ⟨2, ![M, N]⟩ .f32 0x00000000#32) (ix2 p q)
      = ∑ k : Fin K, lhs (ix2 p k) * rhs (ix2 q k) := by
  rw [Ideal.matmul_constant_zero_apply]
  have hr : d.contr.rank = 1 := contr_rank d hlc
  have hs : d.contr.size ⟨0, by omega⟩ = K := contr_size d hlc _
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhsIdx_kept d hln hlb (ix2 p q) _
    | ⟨1, _⟩ => exact (d.lhsIdx_val_of_single (cl := 1) hlc (ix2 p q) _).trans hk)
  have er : d.rhsIdx (ix2 p q) ((contrEquiv1 d K hr hs).symm k) = ix2 q k := funext fun a => Fin.ext (by
    match a with
    | ⟨0, _⟩ => exact rhsIdx_kept d hln hrn hlb hrb (ix2 p q) _
    | ⟨1, _⟩ => exact (d.rhsIdx_val_of_single (cr := 1) hrc (ix2 p q) _).trans hk)
  rw [el, er]

end Idealize.ShloMosaic.MatmulNT
-- ==== Proof.StagesA.lean ====
/-
  The stacked program and the one-matrix program, stage by stage: from the feature maps to the iterates of the
  Newton–Schulz square root.

  The reference works on the whole stack `[32, 256, 4096]` of flattened feature maps; the kernel, at grid point `b`,
  on the one map `x₀ = X (b, ·, ·)`. Both compute, per map,
    the covariance  C = (x − mean x) · xᵀ / 4096        (the reference divides by 4096, the kernel multiplies by 2⁻¹²),
    its trace       τ = Σᵢ Cᵢᵢ                           (the reference masks C by the diagonal, the kernel multiplies C by
                                                          the diagonal's 1/0 matrix: on the extended reals c·1 = c, c·0 = 0),
    A = C / τ,   ZY₀ = ½ (3I − A),   Y₁ = A · ZY₀,   Z₁ = ZY₀,
    and the iteration  ZYₖ = ½ (3I − Zₖ · Yₖ),  Yₖ₊₁ = Yₖ · ZYₖ,  Zₖ₊₁ = ZYₖ · Zₖ.
  Every stage of the reference, read at map `b`, is the kernel's stage (`Slice`): the operations are the same ones
  and each carries the relation from its operands to its result. Nothing here needs the inputs to be finite.
-/
import proofs.«165053_j71107478552742_2_alg».proof.Proof.Gen.KernelIdeal.Skeleton
import proofs.«165053_j71107478552742_2_alg».proof.Proof.RefReadP
import proofs.«165053_j71107478552742_2_alg».proof.Proof.LibBatchSlice
import proofs.«165053_j71107478552742_2_alg».proof.Proof.LibKeepdims
import proofs.«165053_j71107478552742_2_alg».proof.Proof.LibMatmulNT
import Idealize.ShloMosaic.Lib.ValueLayout

noncomputable section

open scoped BigOperators

namespace Cert.Bridge

open Idealize.ShloMosaic Idealize.ShloMosaic.ValueIdx
open Cert.KernelIdeal Cert.KernelIdeal.Gen
open Cert.ReferenceIdeal.ReadP
open Cert.Lib.BatchSlice Cert.Lib.AxisLayout Cert.Lib.Keepdims

/-- The reference's first argument: the stack of feature maps, `[32, 256, 64, 64]`. -/
abbrev Arg0 : Type := (⟨Cert.ReferenceIdeal.S32x256x64x64, .f32⟩ : BufTy).Contents (Elt Ideal)

variable (X0 : Arg0) (b : Fin 32) (x0 : Vec Ideal S1x256x4096 .f32)

/-- The kernel's block `x₀` is map `b` of the flattened stack. -/
def IsBlock : Prop :=
  ∀ (p : Fin 256) (q : Fin 4096), x0 (ix3 (0 : Fin 1) p q) = val_main_v0 (F := Ideal) X0 (ix3 b p q)

/-! ## The flattened map and the covariance -/

/-- The block with its unit axis dropped. -/
theorem pay2_apply (p : Fin 256) (q : Fin 4096) : k0_pay2 x0 (ix2 p q) = x0 (ix3 (0 : Fin 1) p q) :=
  shapeCast_1ab_ab_apply x0 _ p q

/-- The kernel's covariance entry `(i, j)`: the sum over the 4096 positions of (row `i` minus its mean) times row `j`,
    times 2⁻¹². -/
theorem pay3_apply (i j : Fin 256) :
    k0_pay3 x0 (ix2 i j)
      = (∑ k : Fin 4096, (k0_pay2 x0 (ix2 i k)
            - Ideal.div (∑ k' : Fin 4096, k0_pay2 x0 (ix2 i k')) (Ideal.ofBits .f32 0x45800000#32))
          * k0_pay2 x0 (ix2 j k)) * Ideal.ofBits .f32 0x39800000#32 := by
  unfold k0_pay3
  generalize k0_pay2 x0 = y
  dsimp only
  have hmean : ∀ r : Fin 256,
      (multiReduction .add [1] S256 y 0x00000000#32 reduces_S256x4096_S256 (.inl rfl) rfl) (ix1 r)
        = ∑ k' : Fin 4096, y (ix2 r k') := fun r => sum_row_apply y _ _ _ _ r
  refine congrArg (· * Ideal.ofBits .f32 0x39800000#32) ?_
  refine (Idealize.ShloMosaic.MatmulNT.matmul_zero_apply _ rfl rfl rfl rfl rfl rfl none _ y i j).trans ?_
  refine Finset.sum_congr rfl fun k _ => congrArg (· * y (ix2 j k)) ?_
  refine congrArg (y (ix2 i k) - ·) ?_
  refine (broadcastTo_a1_ab_apply _ _ i k).trans ?_
  refine congrArg (Ideal.div · (Ideal.ofBits .f32 0x45800000#32)) ?_
  exact (shapeCast_a_a1_apply _ _ i 0).trans (hmean i)

/-- The reference's covariance entry `(b, i, j)`: the same sum, divided by 4096. -/
theorem ref9_apply (i j : Fin 256) :
    val_main_v9 (F := Ideal) X0 (ix3 b i j)
      = Ideal.div (∑ k : Fin 4096, (val_main_v0 (F := Ideal) X0 (ix3 b i k)
            - Ideal.div (Ideal.ofBits .f32 0x00000000#32 + ∑ k' : Fin 4096, val_main_v0 (F := Ideal) X0 (ix3 b i k'))
                (Ideal.ofBits .f32 0x45800000#32))
          * val_main_v0 (F := Ideal) X0 (ix3 b j k)) (Ideal.ofBits .f32 0x45800000#32) := by
  rw [val_main_v9_apply, val_main_v7_apply, val_main_v8_apply, val_main_cst_1_apply]
  refine congrArg (Ideal.div · (Ideal.ofBits .f32 0x45800000#32)) (Finset.sum_congr rfl fun k _ => ?_)
  rw [val_main_v6_apply, val_main_v5_apply, val_main_v4_apply, val_main_v2_apply, val_main_v1_apply, val_main_v3_apply,
    val_main_cst_0_apply, val_main_cst_apply]
  have e1 : lidx_main_v7 (ix3 b i j) k = ix3 b i k := ext3 rfl rfl rfl
  have e2 : ridx_main_v7 (ix3 b i j) k = ix3 b j k := ext3 rfl rfl rfl
  have e3 : ∀ k' : Fin 4096, idx_main_v1 (idx_main_v2 (idx_main_v5 (ix3 b i k))) k' = ix3 b i k' := fun k' => ext3 rfl rfl rfl
  rw [e1, e2]
  simp only [e3]
  rfl

/-- Map `b` of the reference's covariance is the kernel's covariance. -/
theorem slice_cov (hx : IsBlock X0 b x0) : Slice b (val_main_v9 (F := Ideal) X0) (k0_pay3 x0) := by
  intro i j
  have hy : ∀ (p : Fin 256) (q : Fin 4096), k0_pay2 x0 (ix2 p q) = val_main_v0 (F := Ideal) X0 (ix3 b p q) :=
    fun p q => (pay2_apply x0 p q).trans (hx p q)
  rw [ref9_apply, pay3_apply, div_4096]
  simp only [hy]
  rw [Ideal.ofBits_zero_f32, zero_add]

/-! ## The diagonal -/

/-- Whether `i = j`, as the one-bit comparison of the two 32-bit positions. -/
def eyeBit (i j : Fin 256) : BitVec 1 := IntOp.cmpi .eq (BitVec.ofNat 32 i.val) (BitVec.ofNat 32 j.val)

/-- The kernel's diagonal matrix: `1.0` or `0.0` selected by the comparison of the two positions. -/
theorem pay4_apply (i j : Fin 256) :
    k0_pay4 (F := Ideal) (ix2 i j)
      = Scalar.select (eyeBit i j) (Ideal.ofBits .f32 0x3F800000#32) (Ideal.ofBits .f32 0x00000000#32) := by
  unfold k0_pay4
  show Scalar.select (IntOp.cmpi .eq (iota .tc S256x256 32 [0] iota_S256x256_d0_w32 (ix2 i j))
      (iota .tc S256x256 32 [1] iota_S256x256_d1_w32 (ix2 i j))) _ _ = _
  rw [iota_single_apply, iota_single_apply]
  rfl

/-- The reference's mask for the trace is the same comparison. -/
theorem ref21_apply (i j : Fin 256) : val_main_v21 (F := Ideal) (ix2 i j) = eyeBit i j := rfl

/-- The reference's identity matrix compares `i + 0` with `j`. -/
theorem ref14_apply (i j : Fin 256) : val_main_v14 (F := Ideal) (ix2 i j) = eyeBit i j := by
  rw [val_main_v14_apply, val_main_v13_apply, val_main_v12_apply, val_main_c_apply, val_main_v10_apply, val_main_v11_apply]
  show IntOp.cmpi .eq (BitVec.ofNat 32 i.val + 0#32) (BitVec.ofNat 32 j.val) = _
  rw [BitVec.add_zero]
  rfl

/-- Three times the identity: the reference's (the comparison converted to a float) is the kernel's (`1.0` or `0.0`
    selected by it). -/
theorem i3_eq (u : Fin 1) (i j : Fin 256) : val_main_v18 (F := Ideal) (ix3 u i j) = k0_pay5 (F := Ideal) (ix2 i j) := by
  rw [val_main_v18_apply, val_main_v17_apply, val_main_cst_2_apply, val_main_v16_apply, val_main_v15_apply,
    show idx_main_v16 (ix3 u i j) = ix2 i j from ext2 rfl rfl, ref14_apply, uitofp_bit]
  exact (congrArg (fun z => Ideal.ofBits .f32 0x40400000#32 * z) (pay4_apply i j)).symm

/-- Each broadcast of three times the identity over the stack is, at map `b`, the kernel's matrix. -/
theorem slice_i3 {Y : FVec Ideal ⟨3, ![32, 256, 256]⟩ .f32}
    {idx : (⟨3, ![32, 256, 256]⟩ : Shape).Idx → (⟨3, ![1, 256, 256]⟩ : Shape).Idx}
    (hY : ∀ i, Y i = val_main_v18 (F := Ideal) (idx i)) (hidx : ∀ i, idx i = ix3 (0 : Fin 1) (i 1) (i 2)) :
    Slice b Y (k0_pay5 (F := Ideal)) := fun i j => by
  rw [hY, hidx]
  exact i3_eq 0 i j

/-! ## The trace -/

/-- The kernel's trace: the covariance times the diagonal matrix, summed whole. -/
theorem pay6_apply :
    k0_pay6 x0 = ∑ p : Fin 256, ∑ q : Fin 256, k0_pay3 x0 (ix2 p q) * k0_pay4 (F := Ideal) (ix2 p q) := by
  unfold k0_pay6
  refine (Ideal.multiReduction_add_total
    (shapeCast S1x256x256 (mulf (k0_pay3 x0) (k0_pay4 (F := Ideal))) shapeCasts_S256x256_S1x256x256)
    0x00000000#32 reduces_S1x256x256_S1 (by decide) (.inl rfl) rfl _).trans ?_
  rw [sum_unit_stack]
  refine Finset.sum_congr rfl fun p _ => Finset.sum_congr rfl fun q _ => ?_
  exact shapeCast_ab_1ab_apply _ _ 0 p q

/-- The reference's trace at map `b`: the masked covariance summed over the two matrix axes. -/
theorem ref25_apply :
    val_main_v25 (F := Ideal) X0 (ix1 b)
      = Ideal.ofBits .f32 0x00000000#32 + ∑ p : Fin 256, ∑ q : Fin 256, val_main_v24 (F := Ideal) X0 (ix3 b p q) :=
  hostReduceAdd_planes _ _ _ b

/-- The two traces agree. -/
theorem trace_eq (h9 : Slice b (val_main_v9 (F := Ideal) X0) (k0_pay3 x0)) :
    val_main_v25 (F := Ideal) X0 (ix1 b) = k0_pay6 x0 := by
  rw [ref25_apply, pay6_apply, Ideal.ofBits_zero_f32, zero_add]
  refine Finset.sum_congr rfl fun p _ => Finset.sum_congr rfl fun q _ => ?_
  rw [val_main_v24_apply, val_main_v22_apply, val_main_v23_apply, val_main_cst_3_apply,
    show idx_main_v22 (ix3 b p q) = ix2 p q from ext2 rfl rfl, ref21_apply, pay4_apply, mul_select_bit, h9 p q]
  all_goals rfl

/-! ## The iteration -/

/-- A stacked product of the reference against the kernel's product of the two matrices. -/
theorem mmS {Y L R : FVec Ideal ⟨3, ![32, 256, 256]⟩ .f32}
    {lidx ridx : (⟨3, ![32, 256, 256]⟩ : Shape).Idx → Fin 256 → (⟨3, ![32, 256, 256]⟩ : Shape).Idx}
    (hY : ∀ i, Y i = ∑ k : Fin 256, L (lidx i k) * R (ridx i k))
    (hl : ∀ i k, lidx i k = ix3 (i 0) (i 1) k) (hr : ∀ i k, ridx i k = ix3 (i 0) k (i 2))
    {l r : FVec Ideal ⟨2, ![256, 256]⟩ .f32} (hL : Slice b L l) (hR : Slice b R r) :
    Slice b Y (matmul dot_S256x256_S256x256_S256x256_1_0_0_1_n_n none l r (constant S256x256 .f32 0x00000000#32)) :=
  Slice.mm _ rfl rfl rfl rfl rfl rfl hY hl hr hL hR

/-- The constant `0.5`. -/
abbrev half : EReal := Ideal.ofBits .f32 0x3F000000#32

/-- Map `b` of the reference's iterates `Y₂`, `Z₂`, `ZY₂` are the kernel's, and the traces agree. -/
theorem slices_A (hx : IsBlock X0 b x0) :
    Slice b (val_main_v39 (F := Ideal) X0) (k0_pay11 x0) ∧ Slice b (val_main_v40 (F := Ideal) X0) (k0_pay12 x0)
      ∧ Slice b (val_main_v45 (F := Ideal) X0) (k0_pay13 x0) ∧ val_main_v25 (F := Ideal) X0 (ix1 b) = k0_pay6 x0 := by
  have h9 := slice_cov X0 b x0 hx
  have h25 := trace_eq X0 b x0 h9
  have h28 : Slice b (val_main_v28 (F := Ideal) X0) (k0_pay7 x0) :=
    Slice.div (D := val_main_v27 (F := Ideal) X0) (k0_pay6 x0) (fun i j => by
      rw [val_main_v27_apply, val_main_v26_apply, show idx_main_v26 (idx_main_v27 (ix3 b i j)) = ix1 b from ext1 rfl, h25]) h9
  have hI29 : Slice b (val_main_v29 (F := Ideal)) (k0_pay5 (F := Ideal)) :=
    slice_i3 b val_main_v29_apply (fun _ => ext3 rfl rfl rfl)
  have hI35 : Slice b (val_main_v35 (F := Ideal)) (k0_pay5 (F := Ideal)) :=
    slice_i3 b val_main_v35_apply (fun _ => ext3 rfl rfl rfl)
  have hI42 : Slice b (val_main_v42 (F := Ideal)) (k0_pay5 (F := Ideal)) :=
    slice_i3 b val_main_v42_apply (fun _ => ext3 rfl rfl rfl)
  have h32 : Slice b (val_main_v32 (F := Ideal) X0) (k0_pay8 x0) :=
    Slice.scale (C := val_main_v31 (F := Ideal)) half (fun i j => (val_main_v31_apply _).trans (val_main_cst_5_apply _))
      (hI29.sub h28)
  have h33 : Slice b (val_main_v33 (F := Ideal) X0) (k0_pay9 x0) :=
    mmS b (val_main_v33_apply X0) (fun _ _ => ext3 rfl rfl rfl) (fun _ _ => ext3 rfl rfl rfl) h28 h32
  have h34 := mmS b (val_main_v34_apply X0) (fun _ _ => ext3 rfl rfl rfl) (fun _ _ => ext3 rfl rfl rfl) h32 h33
  have h38 : Slice b (val_main_v38 (F := Ideal) X0) (k0_pay10 x0) :=
    Slice.scale (C := val_main_v37 (F := Ideal)) half (fun i j => (val_main_v37_apply _).trans (val_main_cst_6_apply _))
      (hI35.sub h34)
  have h39 : Slice b (val_main_v39 (F := Ideal) X0) (k0_pay11 x0) :=
    mmS b (val_main_v39_apply X0) (fun _ _ => ext3 rfl rfl rfl) (fun _ _ => ext3 rfl rfl rfl) h33 h38
  have h40 : Slice b (val_main_v40 (F := Ideal) X0) (k0_pay12 x0) :=
    mmS b (val_main_v40_apply X0) (fun _ _ => ext3 rfl rfl rfl) (fun _ _ => ext3 rfl rfl rfl) h38 h32
  have h41 := mmS b (val_main_v41_apply X0) (fun _ _ => ext3 rfl rfl rfl) (fun _ _ => ext3 rfl rfl rfl) h40 h39
  have h45 : Slice b (val_main_v45 (F := Ideal) X0) (k0_pay13 x0) :=
    Slice.scale (C := val_main_v44 (F := Ideal)) half (fun i j => (val_main_v44_apply _).trans (val_main_cst_7_apply _))
      (hI42.sub h41)
  exact ⟨h39, h40, h45, h25⟩

end Cert.Bridge
-- ==== Proof.StagesB.lean ====
/-
  The stacked program and the one-matrix program, stage by stage: the last iterates, the scaled square root, and the gate.

  After the iteration both programs form  S = ½ · Y₄ · (3I − Z₄ · Y₄) · √τ,  its column means  s = (Σᵢ Sᵢ·) / 256,  the hidden
  layer  h = max (W₁ s + b₁, 0),  the gate  g = logistic (W₂ h + b₂)  and the result  x · g  (each channel of the map scaled
  by its gate). The reference contracts `s` and `h` on the left of the weights (`Σ s·W₁`), the kernel on the right
  (`Σ W₁·s`): products commute. The reference spells the logistic as `1 / (1 + e⁻ᶻ)`, which is the function. The
  reference's result is a `[32, 256, 64, 64]` array; flattened back to `[32, 256, 4096]` and read at map `b` it is the
  kernel's block.
-/
import proofs.«165053_j71107478552742_2_alg».proof.Proof.StagesA

noncomputable section

open scoped BigOperators

namespace Cert.Bridge

open Idealize.ShloMosaic Idealize.ShloMosaic.ValueIdx
open Cert.KernelIdeal Cert.KernelIdeal.Gen
open Cert.ReferenceIdeal.ReadP
open Cert.Lib.BatchSlice Cert.Lib.AxisLayout Cert.Lib.Keepdims

/-- The reference's other arguments: the two weight matrices and the two bias vectors. -/
abbrev Arg1 : Type := (⟨Cert.ReferenceIdeal.S32x256, .f32⟩ : BufTy).Contents (Elt Ideal)
abbrev Arg2 : Type := (⟨Cert.ReferenceIdeal.S32, .f32⟩ : BufTy).Contents (Elt Ideal)
abbrev Arg3 : Type := (⟨Cert.ReferenceIdeal.S256x32, .f32⟩ : BufTy).Contents (Elt Ideal)
abbrev Arg4 : Type := (⟨Cert.ReferenceIdeal.S256, .f32⟩ : BufTy).Contents (Elt Ideal)

/-! ## The kernel's last stages, one function each -/

/-- The column means of a matrix, as a column. -/
def kS (mS : FVec Ideal S256x256 .f32) : FVec Ideal S256x1 .f32 :=
  transpose S256x1 [1, 0] (divf (shapeCast S1x256 (multiReduction .add [0] S256 mS 0x00000000#32 reduces_S256x256_S256 (.inl rfl) rfl)
    shapeCasts_S256_S1x256) (broadcast S1x256 (Scalar.ofBits .f32 0x43800000#32))) transposes_S1x256_p1_0_S256x1

/-- The hidden layer. -/
def kH (s : FVec Ideal S256x1 .f32) (x1 : FVec Ideal S32x256 .f32) (x2 : FVec Ideal S32x1 .f32) : FVec Ideal S32x1 .f32 :=
  maximumf (addf (matmul dot_S32x256_S256x1_S32x1_1_0_0_1_n_n none x1 s (constant S32x1 .f32 0x00000000#32))
    (shapeCast S32x1 x2 shapeCasts_S32x1_S32x1)) (broadcast S32x1 (Scalar.ofBits .f32 0x00000000#32))

/-- The gate. -/
def kG (h : FVec Ideal S32x1 .f32) (x3 : FVec Ideal S256x32 .f32) (x4 : FVec Ideal S256x1 .f32) : FVec Ideal S256x1 .f32 :=
  logistic (addf (matmul dot_S256x32_S32x1_S256x1_1_0_0_1_n_n none x3 h (constant S256x1 .f32 0x00000000#32))
    (shapeCast S256x1 x4 shapeCasts_S256x1_S256x1))

/-- The map scaled channel by channel. -/
def kOut (y : FVec Ideal S256x4096 .f32) (g : FVec Ideal S256x1 .f32) : FVec Ideal S256x4096 .f32 :=
  mulf y (broadcastTo S256x4096 g broadcasts_S256x1_S256x4096)

theorem kS_apply (mS : FVec Ideal S256x256 .f32) (c : Fin 256) (u : Fin 1) :
    kS mS (ix2 c u) = Ideal.div (∑ i : Fin 256, mS (ix2 i c)) (Ideal.ofBits .f32 0x43800000#32) := by
  unfold kS
  refine (transpose_ix2_apply _ _ c u).trans ?_
  refine congrArg (Ideal.div · (Ideal.ofBits .f32 0x43800000#32)) ?_
  exact (shapeCast_a_1a_apply _ _ u c).trans (sum_col_apply mS _ _ _ _ c)

theorem kH_apply (s : FVec Ideal S256x1 .f32) (x1 : FVec Ideal S32x256 .f32) (x2 : FVec Ideal S32x1 .f32) (o : Fin 32) (u : Fin 1) :
    kH s x1 x2 (ix2 o u)
      = max ((∑ c : Fin 256, x1 (ix2 o c) * s (ix2 c u)) + x2 (ix2 o u)) (Ideal.ofBits .f32 0x00000000#32) := by
  unfold kH
  refine congrArg (max · (Ideal.ofBits .f32 0x00000000#32)) ?_
  exact congrArg₂ (· + ·) (Idealize.ShloMosaic.PlainMatmul.matmul_zero_apply _ rfl rfl rfl rfl rfl rfl none x1 s o u)
    (congrFun (shapeCast_self x2 _) (ix2 o u))

theorem kG_apply (h : FVec Ideal S32x1 .f32) (x3 : FVec Ideal S256x32 .f32) (x4 : FVec Ideal S256x1 .f32) (p : Fin 256) (u : Fin 1) :
    kG h x3 x4 (ix2 p u) = Ideal.logistic ((∑ o : Fin 32, x3 (ix2 p o) * h (ix2 o u)) + x4 (ix2 p u)) := by
  unfold kG
  refine congrArg Ideal.logistic ?_
  exact congrArg₂ (· + ·) (Idealize.ShloMosaic.PlainMatmul.matmul_zero_apply _ rfl rfl rfl rfl rfl rfl none x3 h p u)
    (congrFun (shapeCast_self x4 _) (ix2 p u))

theorem kOut_apply (y : FVec Ideal S256x4096 .f32) (g : FVec Ideal S256x1 .f32) (p : Fin 256) (q : Fin 4096) :
    kOut y g (ix2 p q) = y (ix2 p q) * g (ix2 p (0 : Fin 1)) :=
  congrArg (y (ix2 p q) * ·) (broadcastTo_a1_ab_apply g _ p q)

/-! ## The reference's last stages at map `b` -/

variable (X0 : Arg0) (b : Fin 32) (x0 : Vec Ideal S1x256x4096 .f32)

theorem refS (c : Fin 256) :
    val_main_v67 (F := Ideal) X0 (ix2 b c)
      = Ideal.div (Ideal.ofBits .f32 0x00000000#32 + ∑ i : Fin 256, val_main_v64 (F := Ideal) X0 (ix3 b i c))
          (Ideal.ofBits .f32 0x43800000#32) := by
  rw [val_main_v67_apply, val_main_v65_apply, val_main_v66_apply, val_main_cst_11_apply, val_main_cst_10_apply]
  have e : ∀ k : Fin 256, idx_main_v65 (ix2 b c) k = ix3 b k c := fun k => ext3 rfl rfl rfl
  simp only [e]
  all_goals rfl

theorem refH (W1 : Arg1) (B1 : Arg2) (o : Fin 32) :
    val_main_v72 (F := Ideal) X0 W1 B1 (ix2 b o)
      = max ((∑ k : Fin 256, val_main_v67 (F := Ideal) X0 (ix2 b k) * W1 (ix2 o k)) + B1 (ix1 o))
          (Ideal.ofBits .f32 0x00000000#32) := by
  rw [val_main_v72_apply, val_main_v71_apply, val_main_v68_apply, val_main_v70_apply, val_main_v69_apply,
    val_main_call0_v0_apply, val_main_call0_cst_apply]
  have el : ∀ k : Fin 256, lidx_main_v68 (ix2 b o) k = ix2 b k := fun k => ext2 rfl rfl
  have er : ∀ k : Fin 256, ridx_main_v68 (ix2 b o) k = ix2 o k := fun k => ext2 rfl rfl
  have eb : idx_main_v69 (idx_main_v70 (ix2 b o)) = ix1 o := ext1 rfl
  simp only [el, er, eb]
  all_goals rfl

theorem refG (W1 : Arg1) (B1 : Arg2) (W2 : Arg3) (B2 : Arg4) (p : Fin 256) :
    val_main_v82 (F := Ideal) X0 W1 B1 W2 B2 (ix2 b p)
      = Ideal.logistic ((∑ k : Fin 32, val_main_v72 (F := Ideal) X0 W1 B1 (ix2 b k) * W2 (ix2 p k)) + B2 (ix1 p)) := by
  rw [val_main_v82_apply, val_main_v81_apply, val_main_cst_13_apply, val_main_v80_apply, val_main_v79_apply, val_main_cst_12_apply,
    val_main_v78_apply, val_main_v77_apply, val_main_v76_apply, val_main_v73_apply, val_main_v75_apply, val_main_v74_apply]
  have el : ∀ k : Fin 32, lidx_main_v73 (ix2 b p) k = ix2 b k := fun k => ext2 rfl rfl
  have er : ∀ k : Fin 32, ridx_main_v73 (ix2 b p) k = ix2 p k := fun k => ext2 rfl rfl
  have eb : idx_main_v74 (idx_main_v75 (ix2 b p)) = ix1 p := ext1 rfl
  simp only [el, er, eb]
  exact logistic_expanded _

/-- The reference's result, flattened back to `[32, 256, 4096]`, at `(b, p, q)`: the gate of channel `p` times the map's entry. -/
theorem out_apply (W1 : Arg1) (B1 : Arg2) (W2 : Arg3) (B2 : Arg4) (p : Fin 256) (q : Fin 4096) :
    val_main_v0 (F := Ideal) (val_main_v85 (F := Ideal) X0 W1 B1 W2 B2) (ix3 b p q)
      = val_main_v82 (F := Ideal) X0 W1 B1 W2 B2 (ix2 b p) * val_main_v0 (F := Ideal) X0 (ix3 b p q) := by
  rw [val_main_v0_apply (val_main_v85 (F := Ideal) X0 W1 B1 W2 B2), val_main_v85_apply, val_main_v84_apply, val_main_v83_apply,
    val_main_v0_apply X0]
  have hb := b.isLt
  have hp := p.isLt
  have hq := q.isLt
  refine congrArg (· * X0 (idx_main_v0 (ix3 b p q))) (congrArg (val_main_v82 (F := Ideal) X0 W1 B1 W2 B2) (ext2 ?_ ?_))
  · show ((b.val * 256 + p.val) * 4096 + q.val) / 1048576 = b.val
    omega
  · show ((b.val * 256 + p.val) * 4096 + q.val) / 4096 % 256 = p.val
    omega

/-! ## The last stages agree -/

theorem tail_apply (mS : FVec Ideal S256x256 .f32) (hm : Slice b (val_main_v64 (F := Ideal) X0) mS)
    (y : FVec Ideal S256x4096 .f32) (hy : ∀ (p : Fin 256) (q : Fin 4096), y (ix2 p q) = val_main_v0 (F := Ideal) X0 (ix3 b p q))
    (x1 : FVec Ideal S32x256 .f32) (x2 : FVec Ideal S32x1 .f32) (x3 : FVec Ideal S256x32 .f32) (x4 : FVec Ideal S256x1 .f32)
    (W1 : Arg1) (B1 : Arg2) (W2 : Arg3) (B2 : Arg4)
    (h1 : ∀ (o : Fin 32) (c : Fin 256), x1 (ix2 o c) = W1 (ix2 o c)) (h2 : ∀ (o : Fin 32) (u : Fin 1), x2 (ix2 o u) = B1 (ix1 o))
    (h3 : ∀ (c : Fin 256) (o : Fin 32), x3 (ix2 c o) = W2 (ix2 c o)) (h4 : ∀ (c : Fin 256) (u : Fin 1), x4 (ix2 c u) = B2 (ix1 c))
    (p : Fin 256) (q : Fin 4096) :
    kOut y (kG (kH (kS mS) x1 x2) x3 x4) (ix2 p q)
      = val_main_v82 (F := Ideal) X0 W1 B1 W2 B2 (ix2 b p) * val_main_v0 (F := Ideal) X0 (ix3 b p q) := by
  have hs : ∀ (c : Fin 256) (u : Fin 1), kS mS (ix2 c u) = val_main_v67 (F := Ideal) X0 (ix2 b c) := fun c u => by
    rw [kS_apply, refS, Ideal.ofBits_zero_f32, zero_add]
    exact congrArg (Ideal.div · _) (Finset.sum_congr rfl fun i _ => (hm i c).symm)
  have hh : ∀ (o : Fin 32) (u : Fin 1), kH (kS mS) x1 x2 (ix2 o u) = val_main_v72 (F := Ideal) X0 W1 B1 (ix2 b o) := fun o u => by
    rw [kH_apply, refH, h2]
    refine congrArg (max · _) (congrArg (· + _) (Finset.sum_congr rfl fun c _ => ?_))
    rw [hs, h1, mul_comm]
  have hg : ∀ (c : Fin 256) (u : Fin 1),
      kG (kH (kS mS) x1 x2) x3 x4 (ix2 c u) = val_main_v82 (F := Ideal) X0 W1 B1 W2 B2 (ix2 b c) := fun c u => by
    rw [kG_apply, refG, h4]
    refine congrArg Ideal.logistic (congrArg (· + _) (Finset.sum_congr rfl fun o _ => ?_))
    rw [hh, h3, mul_comm]
  rw [kOut_apply, hg, hy, mul_comm]

/-- THE KERNEL'S BLOCK: what the body stores at grid point `b`, entry `(u, p, q)`, is the reference's flattened result at
    `(b, p, q)`. -/
theorem block_value (hx : IsBlock X0 b x0)
    (x1 : Vec Ideal S32x256 .f32) (x2 : Vec Ideal S32x1 .f32) (x3 : Vec Ideal S256x32 .f32) (x4 : Vec Ideal S256x1 .f32)
    (W1 : Arg1) (B1 : Arg2) (W2 : Arg3) (B2 : Arg4)
    (h1 : ∀ (o : Fin 32) (c : Fin 256), x1 (ix2 o c) = W1 (ix2 o c)) (h2 : ∀ (o : Fin 32) (u : Fin 1), x2 (ix2 o u) = B1 (ix1 o))
    (h3 : ∀ (c : Fin 256) (o : Fin 32), x3 (ix2 c o) = W2 (ix2 c o)) (h4 : ∀ (c : Fin 256) (u : Fin 1), x4 (ix2 c u) = B2 (ix1 c))
    (u : Fin 1) (p : Fin 256) (q : Fin 4096) :
    k0_pay1 (k0_pay14 (k0_pay2 x0) (k0_pay5 (F := Ideal)) (k0_pay6 x0) (k0_pay11 x0) (k0_pay12 x0) (k0_pay13 x0) x1 x2 x3 x4) (ix3 u p q)
      = val_main_v0 (F := Ideal) (val_main_v85 (F := Ideal) X0 W1 B1 W2 B2) (ix3 b p q) := by
  obtain ⟨h39, h40, h45, h25⟩ := slices_A X0 b x0 hx
  have hI49 : Slice b (val_main_v49 (F := Ideal)) (k0_pay5 (F := Ideal)) :=
    slice_i3 b val_main_v49_apply (fun _ => ext3 rfl rfl rfl)
  have hI56 : Slice b (val_main_v56 (F := Ideal)) (k0_pay5 (F := Ideal)) :=
    slice_i3 b val_main_v56_apply (fun _ => ext3 rfl rfl rfl)
  have h46 := mmS b (val_main_v46_apply X0) (fun _ _ => ext3 rfl rfl rfl) (fun _ _ => ext3 rfl rfl rfl) h39 h45
  have h47 := mmS b (val_main_v47_apply X0) (fun _ _ => ext3 rfl rfl rfl) (fun _ _ => ext3 rfl rfl rfl) h45 h40
  have h48 := mmS b (val_main_v48_apply X0) (fun _ _ => ext3 rfl rfl rfl) (fun _ _ => ext3 rfl rfl rfl) h47 h46
  have h52 := Slice.scale (C := val_main_v51 (F := Ideal)) half
    (fun i j => (val_main_v51_apply _).trans (val_main_cst_8_apply _)) (hI49.sub h48)
  have h53 := mmS b (val_main_v53_apply X0) (fun _ _ => ext3 rfl rfl rfl) (fun _ _ => ext3 rfl rfl rfl) h46 h52
  have h54 := mmS b (val_main_v54_apply X0) (fun _ _ => ext3 rfl rfl rfl) (fun _ _ => ext3 rfl rfl rfl) h52 h47
  have h55 := mmS b (val_main_v55_apply X0) (fun _ _ => ext3 rfl rfl rfl) (fun _ _ => ext3 rfl rfl rfl) h54 h53
  have h58 := mmS b (val_main_v58_apply X0) (fun _ _ => ext3 rfl rfl rfl) (fun _ _ => ext3 rfl rfl rfl) h53 (hI56.sub h55)
  have h60 := Slice.scale (C := val_main_v59 (F := Ideal)) half
    (fun i j => (val_main_v59_apply _).trans (val_main_cst_9_apply _)) h58
  have h64 := Slice.scaleRight (C := val_main_v63 (F := Ideal) X0) (Scalar.sqrt (k0_pay6 x0)) (fun i j => by
    rw [val_main_v63_apply, val_main_v62_apply, show idx_main_v62 (idx_main_v63 (ix3 b i j)) = ix1 b from ext1 rfl,
      val_main_v61_apply, h25]
    all_goals rfl) h60
  unfold k0_pay1
  refine (shapeCast_ab_1ab_apply _ _ u p q).trans ?_
  refine Eq.trans ?_ (out_apply X0 b W1 B1 W2 B2 p q).symm
  exact tail_apply X0 b _ h64 (k0_pay2 x0) (fun p q => (pay2_apply x0 p q).trans (hx p q)) x1 x2 x3 x4 W1 B1 W2 B2 h1 h2 h3 h4 p q

end Cert.Bridge
-- ==== Proof.KernelRun.lean ====
/-
  The kernel's run, read: what the result array holds after every grid point has written its block back, and after the
  host has folded the `[32, 256, 4096]` array back to `[32, 256, 64, 64]`.

  Grid point `t` stages map `t` of the flattened stack (block index `(t, 0, 0)` of blocks `[1, 256, 4096]`), the two weight
  matrices whole and the two biases as columns, and writes back block `(t, 0, 0)` of the result. By `block_value` that
  block is block `t` of ONE array — the reference's result, flattened —, the 32 blocks tile the array, so the array ends
  holding it; folding it back undoes the flattening.
-/
import proofs.«165053_j71107478552742_2_alg».proof.Proof.Gen.KernelIdeal.Frame
import proofs.«165053_j71107478552742_2_alg».proof.Proof.StagesB
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.StableHlo
open Idealize.ShloMosaic.Pipeline (Dat)

namespace Cert.KernelIdeal.RunValue

open Cert.KernelIdeal Cert.KernelIdeal.Gen Idealize.ShloMosaic.ValueIdx Cert.Bridge Cert.Lib.AxisLayout Cert.Lib.Keepdims
open Cert.ReferenceIdeal.ReadP

variable (m : (ℓ : Loc nD τ sig) → Buf (Elt Ideal) ℓ) (ρ : Dev nD → PrngReg)

/-- The reference's result of the kernel's own arguments. -/
abbrev Res (c : Dev nD) : Arg0 :=
  val_main_v85 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))

/-- That result flattened to `[32, 256, 4096]`: what the pallas_call's result array ends holding. -/
def G (c : Dev nD) : Buf (Elt Ideal) ((c.tc : Thread nD τ).loc main_v3) := val_main_v0 (F := Ideal) (Res m c)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the grid: windows 0 and 5 are at block `(t, 0, 0)`, the others at block `(0, 0)`. -/
theorem idx_facts : ∀ t : Fin cfg0.N, win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The grid point as a map number. -/
def bOf (t : Fin cfg0.N) : Fin 32 := ⟨t.val, by have h := t.isLt; have hN : cfg0.N = 32 := N_0; omega⟩

/-! ## The arrays as the region finds them -/

theorem V_v0 (c : Dev nD) : (V m c main_v0 : S32x256x4096.Idx → Elt Ideal .f32)
    = val_main_v0 (F := Ideal) (m ((c.tc : Thread nD τ).loc main_arg0)) := by
  show StableHlo.after hostOps0 (fun b => m (c, b)) (Proc.devRef .tc main_v0) = _
  after_results
  rfl

theorem V_v1 (c : Dev nD) : (V m c main_v1 : S32x1.Idx → Elt Ideal .f32)
    = shapeCast S32x1 (m ((c.tc : Thread nD τ).loc main_arg2)) Facts₀.shapeCasts_S32_S32x1 := by
  show StableHlo.after hostOps0 (fun b => m (c, b)) (Proc.devRef .tc main_v1) = _
  after_results
  rfl

theorem V_v2 (c : Dev nD) : (V m c main_v2 : S256x1.Idx → Elt Ideal .f32)
    = shapeCast S256x1 (m ((c.tc : Thread nD τ).loc main_arg4)) Facts₀.shapeCasts_S256_S256x1 := by
  show StableHlo.after hostOps0 (fun b => m (c, b)) (Proc.devRef .tc main_v2) = _
  after_results
  rfl

/-! ## The input blocks -/

theorem iblk0_apply (c : Dev nD) (t : Fin cfg0.N) (p : Fin 256) (q : Fin 4096) :
    (iblk m c 0 t : Vec Ideal S1x256x4096 .f32) (ix3 (0 : Fin 1) p q)
      = val_main_v0 (F := Ideal) (m ((c.tc : Thread nD τ).loc main_arg0)) (ix3 (bOf t) p q) := by
  obtain ⟨e0, e1, e2, -⟩ := idx_facts t
  rw [← V_v0 m c]
  unfold iblk
  rw [View.read_apply]
  show V m c main_v0 _ = V m c main_v0 _
  refine congrArg (V m c main_v0) (funext fun a => Fin.ext ?_)
  match a with
  | ⟨0, _⟩ => show win0_0.index t (0 : Fin 3) * 1 + 1 * 0 = t.val; rw [e0]; omega
  | ⟨1, _⟩ => show win0_0.index t (1 : Fin 3) * 256 + 1 * p.val = p.val; rw [e1]; omega
  | ⟨2, _⟩ => show win0_0.index t (2 : Fin 3) * 4096 + 1 * q.val = q.val; rw [e2]; omega

theorem iblk1_apply (c : Dev nD) (t : Fin cfg0.N) (o : Fin 32) (k : Fin 256) :
    (iblk m c 1 t : Vec Ideal S32x256 .f32) (ix2 o k) = (m ((c.tc : Thread nD τ).loc main_arg1) : Arg1) (ix2 o k) := by
  obtain ⟨-, -, -, -, -, -, e0, e1, -⟩ := idx_facts t
  rw [← V_main_arg1 m c]
  unfold iblk
  rw [View.read_apply]
  show V m c main_arg1 _ = V m c main_arg1 _
  refine congrArg (V m c main_arg1) (funext fun a => Fin.ext ?_)
  match a with
  | ⟨0, _⟩ => show win0_1.index t (0 : Fin 2) * 32 + 1 * o.val = o.val; rw [e0]; omega
  | ⟨1, _⟩ => show win0_1.index t (1 : Fin 2) * 256 + 1 * k.val = k.val; rw [e1]; omega

theorem iblk2_apply (c : Dev nD) (t : Fin cfg0.N) (o : Fin 32) (u : Fin 1) :
    (iblk m c 2 t : Vec Ideal S32x1 .f32) (ix2 o u) = (m ((c.tc : Thread nD τ).loc main_arg2) : Arg2) (ix1 o) := by
  obtain ⟨-, -, -, -, -, -, -, -, e0, e1, -⟩ := idx_facts t
  refine Eq.trans ?_ (shapeCast_a_a1_apply (m ((c.tc : Thread nD τ).loc main_arg2)) Facts₀.shapeCasts_S32_S32x1 o u)
  rw [← V_v1 m c]
  unfold iblk
  rw [View.read_apply]
  show V m c main_v1 _ = V m c main_v1 _
  refine congrArg (V m c main_v1) (funext fun a => Fin.ext ?_)
  match a with
  | ⟨0, _⟩ => show win0_2.index t (0 : Fin 2) * 32 + 1 * o.val = o.val; rw [e0]; omega
  | ⟨1, _⟩ => show win0_2.index t (1 : Fin 2) * 1 + 1 * u.val = u.val; rw [e1]; omega

theorem iblk3_apply (c : Dev nD) (t : Fin cfg0.N) (k : Fin 256) (o : Fin 32) :
    (iblk m c 3 t : Vec Ideal S256x32 .f32) (ix2 k o) = (m ((c.tc : Thread nD τ).loc main_arg3) : Arg3) (ix2 k o) := by
  obtain ⟨-, -, -, -, -, -, -, -, -, -, e0, e1, -⟩ := idx_facts t
  rw [← V_main_arg3 m c]
  unfold iblk
  rw [View.read_apply]
  show V m c main_arg3 _ = V m c main_arg3 _
  refine congrArg (V m c main_arg3) (funext fun a => Fin.ext ?_)
  match a with
  | ⟨0, _⟩ => show win0_3.index t (0 : Fin 2) * 256 + 1 * k.val = k.val; rw [e0]; omega
  | ⟨1, _⟩ => show win0_3.index t (1 : Fin 2) * 32 + 1 * o.val = o.val; rw [e1]; omega

theorem iblk4_apply (c : Dev nD) (t : Fin cfg0.N) (k : Fin 256) (u : Fin 1) :
    (iblk m c 4 t : Vec Ideal S256x1 .f32) (ix2 k u) = (m ((c.tc : Thread nD τ).loc main_arg4) : Arg4) (ix1 k) := by
  obtain ⟨-, -, -, -, -, -, -, -, -, -, -, -, e0, e1⟩ := idx_facts t
  refine Eq.trans ?_ (shapeCast_a_a1_apply (m ((c.tc : Thread nD τ).loc main_arg4)) Facts₀.shapeCasts_S256_S256x1 k u)
  rw [← V_v2 m c]
  unfold iblk
  rw [View.read_apply]
  show V m c main_v2 _ = V m c main_v2 _
  refine congrArg (V m c main_v2) (funext fun a => Fin.ext ?_)
  match a with
  | ⟨0, _⟩ => show win0_4.index t (0 : Fin 2) * 256 + 1 * k.val = k.val; rw [e0]; omega
  | ⟨1, _⟩ => show win0_4.index t (1 : Fin 2) * 1 + 1 * u.val = u.val; rw [e1]; omega

/-! ## The write-backs and the array after the run -/

/-- What the body stores at point `t`, at any index of its block: the flattened result at map `t`. -/
theorem stored_apply (c : Dev nD) (t : Fin cfg0.N) (y : S1x256x4096.Idx) :
    k0_pay1 (k0_pay14 (k0_pay2 (iblk m c 0 t)) (k0_pay5 (F := Ideal)) (k0_pay6 (iblk m c 0 t)) (k0_pay11 (iblk m c 0 t))
        (k0_pay12 (iblk m c 0 t)) (k0_pay13 (iblk m c 0 t)) (iblk m c 1 t) (iblk m c 2 t) (iblk m c 3 t) (iblk m c 4 t)) y
      = G m c (ix3 (bOf t) (y 1) (y 2)) := by
  have key := block_value (m ((c.tc : Thread nD τ).loc main_arg0)) (bOf t) (iblk m c 0 t) (fun p q => iblk0_apply m c t p q)
    (iblk m c 1 t) (iblk m c 2 t) (iblk m c 3 t) (iblk m c 4 t)
    (m ((c.tc : Thread nD τ).loc main_arg1)) (m ((c.tc : Thread nD τ).loc main_arg2))
    (m ((c.tc : Thread nD τ).loc main_arg3)) (m ((c.tc : Thread nD τ).loc main_arg4))
    (fun o k => iblk1_apply m c t o k) (fun o u => iblk2_apply m c t o u) (fun k o => iblk3_apply m c t k o)
    (fun k u => iblk4_apply m c t k u) (y 0) (y 1) (y 2)
  exact (congrArg _ (eq_ix3 y)).trans key

/-- WHAT POINT `t` WRITES BACK is block `t` of `G`. -/
theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after0_5]
  unfold out0_5
  rw [View.canon_unit_zero hz3]
  simp only [View.ld_unit_zero (S := S1x256x4096) hz3, View.ld_unit_zero (S := S32x256) hz2, View.ld_unit_zero (S := S32x1) hz2,
    View.ld_unit_zero (S := S256x32) hz2, View.ld_unit_zero (S := S256x1) hz2]
  obtain ⟨-, -, -, e0, e1, e2, -⟩ := idx_facts t
  funext y
  refine (stored_apply m c t y).trans ?_
  show G m c _ = G m c (((cfg0.win 5).blk t).view.emb y)
  refine congrArg (G m c) (funext fun a => Fin.ext ?_)
  have hy0 : (y 0).val < 1 := (y 0).isLt
  match a with
  | ⟨0, _⟩ => show t.val = win0_5.index t (0 : Fin 3) * 1 + 1 * (y 0).val; rw [e0]; omega
  | ⟨1, _⟩ => show (y 1).val = win0_5.index t (1 : Fin 3) * 256 + 1 * (y 1).val; rw [e1]; omega
  | ⟨2, _⟩ => show (y 2).val = win0_5.index t (2 : Fin 3) * 4096 + 1 * (y 2).val; rw [e2]; omega

/-- An index of the result array is in point `t`'s block iff each coordinate is in the block's range on its axis. -/
theorem mem_blk5 (t : Fin cfg0.N) (i : S32x256x4096.Idx) :
    i ∈ ((cfg0.win 5).blk t).view.set ↔ ∀ a : Fin 3, win0_5.index t a * S1x256x4096.size a ≤ (i a).val
      ∧ (i a).val < win0_5.index t a * S1x256x4096.size a + S1x256x4096.size a := by
  show i ∈ ((View.whole main_v3).slice (win0_5.rect t)).set ↔ _
  rw [View.set_slice_whole, Rect.mem_set_unit]
  exact Iff.rfl

/-- THE ARRAY after the run: the 32 blocks tile it, so it holds `G`. -/
theorem final5 (c : Dev nD) : (dats m 0 c).arrAt 5 cfg0.N = G m c :=
  (dats m 0 c).arrAt_eq_of_cover 5 (G m c) (fun t _ => flushed_eq m c t) fun i => by
    have hN : cfg0.N = 32 := N_0
    have hi0 : (i 0).val < 32 := (i 0).isLt
    have hi1 : (i 1).val < 256 := (i 1).isLt
    have hi2 : (i 2).val < 4096 := (i 2).isLt
    have key : ∀ t : Fin cfg0.N, t.val = (i 0).val → i ∈ ((cfg0.win 5).blk t).view.set := by
      intro t ht
      obtain ⟨-, -, -, e0, e1, e2, -⟩ := idx_facts t
      rw [mem_blk5]
      intro a
      match a with
      | ⟨0, _⟩ => show win0_5.index t (0 : Fin 3) * 1 ≤ (i 0).val ∧ (i 0).val < win0_5.index t (0 : Fin 3) * 1 + 1; rw [e0]; omega
      | ⟨1, _⟩ => show win0_5.index t (1 : Fin 3) * 256 ≤ (i 1).val ∧ (i 1).val < win0_5.index t (1 : Fin 3) * 256 + 256; rw [e1]; omega
      | ⟨2, _⟩ => show win0_5.index t (2 : Fin 3) * 4096 ≤ (i 2).val ∧ (i 2).val < win0_5.index t (2 : Fin 3) * 4096 + 4096; rw [e2]; omega
    exact ⟨⟨(i 0).val, by omega⟩, flush0_5 _, key _ rfl⟩

/-! ## The host's fold back, and the run -/

/-- After the region the host folds the result array back to `[32, 256, 64, 64]`: the reference's result. -/
theorem tail_v4 (c : Dev nD) :
    Pipeline.afterTail₀ cfgs (dats m) 0 (V0 m) [hostOps1] c main_v4 = Res m c := by
  unfold Pipeline.afterTail₀
  show StableHlo.after hostOps1 _ (Proc.devRef .tc main_v4) = _
  after_results
  have hW : Pipeline.withArrays (cfgs 0).spec c (V0 m c) (fun w => (dats m 0 c).arrAt w (cfgs 0).N) (Proc.tc.devRef main_v3) = G m c :=
    (Pipeline.withArrays_arr spec0 launch0.win.arr_inj c _ _ 5).trans (final5 m c)
  rw [hW]
  exact shapeCast_shapeCast (Res m c) _ _

/-- THE RUN, read: every weakly fair execution of the kernel's program ends with the result at the reference's result of
    the same arguments, and the arguments unchanged. -/
theorem run : θ_run defs (onTc (τ := τ) (main (F := Ideal))) ⟨m, fun _ => 0, ρ⟩ fun r => ∀ c : Dev nD,
      r.2.mem ((c.tc : Thread nD τ).loc main_v4) = Res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v4 (Pipeline.mem_restRefs_of main_v4 (by decide) (by decide))).trans (tail_v4 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.RunValue
-- ==== Proof.lean ====
/-
  The certificate: the fused covariance-pooling gate kernel against its jnp reference, over the extended reals.

  Per feature map both programs compute the covariance of the 256 channels over the 4096 positions, normalise it by its
  trace, run five Newton–Schulz steps towards its square root, average the scaled root's columns, pass the averages through
  a two-layer gate (relu, logistic) and scale each channel of the map by its gate. The kernel does this for one map per grid
  point on the flattened stack `[32, 256, 4096]`; the reference for the whole stack at once. The two differ only in
  spellings that denote one function on every extended real: a division by 4096 against a product with 2⁻¹², a masked sum
  against the sum of a product with the 1/0 diagonal, the order of the two factors under a sum, and the logistic written
  out. So no claim uses the precondition.

  `preserves` is `True`: the idealisation rewrote nothing. The two kernel frames are the generated ones; the
  reference's frame is its run with the result dropped.
-/
import proofs.«165053_j71107478552742_2_alg».proof.Defs
import proofs.«165053_j71107478552742_2_alg».proof.Proof.Gen.Kernel
import proofs.«165053_j71107478552742_2_alg».proof.Proof.Gen.Kernel.Skeleton
import proofs.«165053_j71107478552742_2_alg».proof.Proof.Gen.Kernel.Launch
import proofs.«165053_j71107478552742_2_alg».proof.Proof.Gen.Kernel.Points
import proofs.«165053_j71107478552742_2_alg».proof.Proof.Gen.Kernel.Frame
import proofs.«165053_j71107478552742_2_alg».proof.Proof.Gen.KernelIdeal
import proofs.«165053_j71107478552742_2_alg».proof.Proof.Gen.KernelIdeal.Skeleton
import proofs.«165053_j71107478552742_2_alg».proof.Proof.Gen.KernelIdeal.Launch
import proofs.«165053_j71107478552742_2_alg».proof.Proof.Gen.KernelIdeal.Points
import proofs.«165053_j71107478552742_2_alg».proof.Proof.Gen.KernelIdeal.Frame
import proofs.«165053_j71107478552742_2_alg».proof.Proof.Gen.ReferenceIdeal
import proofs.«165053_j71107478552742_2_alg».proof.Proof.Gen.Pre_finite_inputs
import proofs.«165053_j71107478552742_2_alg».proof.Proof.RefRunP
import proofs.«165053_j71107478552742_2_alg».proof.Proof.RefReadP
import proofs.«165053_j71107478552742_2_alg».proof.Proof.KernelRun
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- Both programs, run from memories that agree on the arguments, end with the reference's result of those arguments:
    the kernel by its run read block by block, the reference by its run read operation by operation. -/
theorem algebraic : Cert.algebraic_KernelIdeal_ReferenceIdeal := by
  intro m ρ m' ρ' _ hagree
  refine ⟨fun c => Cert.KernelIdeal.RunValue.Res m c, Cert.KernelIdeal.RunValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v85_eq, (hagree c).1, (hagree c).2.1, (hagree c).2.2.1, (hagree c).2.2.2.1,
    (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
